-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x200000 : Shape := ⟨2, ![2, 200000]⟩
abbrev S200000 : Shape := ⟨1, ![200000]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S200000 : S_.BroadcastsInDim S200000 (![] : Fin 0 → Fin S200000.rank)
  reducesTo_S200000_S_d0 : S200000.ReducesTo [0] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S128 .f32) (main_arg6 : FVec F S128x2 .f32) (main_arg7 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : IVec S2x200000 32) (main_arg1 : FVec F S200000 .f32) (main_arg2 : FVec F S1x128 .f32) (main_arg3 : FVec F S128 .f32) (main_arg4 : FVec F S128x128 .f32) (main_arg5 : FVec F S128 .f32) (main_arg6 : FVec F S128x2 .f32) (main_arg7 : FVec F S2 .f32) : IVec S_ 1 :=
  let main_v0 : FVec F S200000 .f32 := Host.absf main_arg1
  let main_cst : FVec F S_ .f32 := constant S_ .f32 0x7F800000#32
  let main_v1 : FVec F S200000 .f32 := broadcastInDim S200000 ![] bcast_S_S200000 main_cst
  let main_v2 : IVec S200000 1 := cmpf .olt main_v0 main_v1
  let main_c : IVec S_ 1 := constantI S_ 1 1#1
  let main_v3 : IVec S_ 1 := (fun x v => Host.reduce IntOp.andi x v reducesTo_S200000_S_d0 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S2x200000 : Shape := ⟨2, ![2, 200000]⟩
abbrev S200000 : Shape := ⟨1, ![200000]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x200000 : Shape := ⟨2, ![1, 200000]⟩
abbrev S400000 : Shape := ⟨1, ![400000]⟩
abbrev S_ : Shape := ⟨0, ![]⟩
abbrev S400000x1 : Shape := ⟨2, ![400000, 1]⟩
abbrev S200000x1 : Shape := ⟨2, ![200000, 1]⟩
abbrev S200000x128 : Shape := ⟨2, ![200000, 128]⟩
abbrev S8000x1 : Shape := ⟨2, ![8000, 1]⟩
abbrev S8000x128 : Shape := ⟨2, ![8000, 128]⟩
abbrev S400000x128 : Shape := ⟨2, ![400000, 128]⟩
abbrev S200000x2 : Shape := ⟨2, ![200000, 2]⟩
abbrev S8000x2 : Shape := ⟨2, ![8000, 2]⟩
abbrev S400000x2 : Shape := ⟨2, ![400000, 2]⟩
abbrev S1x2 : Shape := ⟨2, ![1, 2]⟩

abbrev nBuf : Space → Nat
  | .hbm => 125
  | .vmem => 17
  | .smem => 0
  | _ => 0

abbrev bufTy : (tb : Table) → Fin (tcTables nBuf tb) → BufTy
  | .hbm, ⟨0, _⟩ => ⟨S2x200000, .i32⟩
  | .hbm, ⟨1, _⟩ => ⟨S200000, .f32⟩
  | .hbm, ⟨2, _⟩ => ⟨S1x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S1x200000, .i32⟩
  | .hbm, ⟨9, _⟩ => ⟨S200000, .i32⟩
  | .hbm, ⟨10, _⟩ => ⟨S1x200000, .i32⟩
  | .hbm, ⟨11, _⟩ => ⟨S200000, .i32⟩
  | .hbm, ⟨12, _⟩ => ⟨S200000, .i32⟩
  | .hbm, ⟨13, _⟩ => ⟨S400000, .i32⟩
  | .hbm, ⟨14, _⟩ => ⟨S400000, .i32⟩
  | .hbm, ⟨15, _⟩ => ⟨S_, .f32⟩
  | .hbm, ⟨16, _⟩ => ⟨S200000, .f32⟩
  | .hbm, ⟨17, _⟩ => ⟨S400000, .f32⟩
  | .hbm, ⟨18, _⟩ => ⟨S_, .f32⟩
  | .hbm, ⟨19, _⟩ => ⟨S200000, .f32⟩
  | .hbm, ⟨20, _⟩ => ⟨S400000x1, .i32⟩
  | .hbm, ⟨21, _⟩ => ⟨S200000, .f32⟩
  | .hbm, ⟨22, _⟩ => ⟨S_, .f32⟩
  | .hbm, ⟨23, _⟩ => ⟨S200000, .f32⟩
  | .hbm, ⟨24, _⟩ => ⟨S200000, .i1⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000, .f32⟩
  | .hbm, ⟨41, _⟩ => ⟨S400000, .f32⟩
  | .hbm, ⟨42, _⟩ => ⟨S_, .i32⟩
  | .hbm, ⟨43, _⟩ => ⟨S400000, .i32⟩
  | .hbm, ⟨44, _⟩ => ⟨S400000, .i1⟩
  | .hbm, ⟨45, _⟩ => ⟨S_, .i32⟩
  | .hbm, ⟨46, _⟩ => ⟨S400000, .i32⟩
  | .hbm, ⟨47, _⟩ => ⟨S400000, .i32⟩
  | .hbm, ⟨48, _⟩ => ⟨S400000, .i32⟩
  | .hbm, ⟨49, _⟩ => ⟨S400000x1, .i32⟩
  | .hbm, ⟨50, _⟩ => ⟨S400000, .f32⟩
  | .hbm, ⟨51, _⟩ => ⟨S400000, .f32⟩
  | .hbm, ⟨52, _⟩ => ⟨S200000x1, .f32⟩
  | .hbm, ⟨53, _⟩ => ⟨S200000x128, .f32⟩
  | .hbm, ⟨54, _⟩ => ⟨S_, .i32⟩
  | .hbm, ⟨55, _⟩ => ⟨S400000, .i32⟩
  | .hbm, ⟨56, _⟩ => ⟨S400000, .i1⟩
  | .hbm, ⟨57, _⟩ => ⟨S_, .i32⟩
  | .hbm, ⟨58, _⟩ => ⟨S400000, .i32⟩
  | .hbm, ⟨59, _⟩ => ⟨S400000, .i32⟩
  | .hbm, ⟨60, _⟩ => ⟨S400000, .i32⟩
  | .hbm, ⟨61, _⟩ => ⟨S400000x1, .i32⟩
  | .hbm, ⟨62, _⟩ => ⟨S400000x128, .f32⟩
  | .hbm, ⟨63, _⟩ => ⟨S400000x1, .f32⟩
  | .hbm, ⟨64, _⟩ => ⟨S400000x128, .f32⟩
  | .hbm, ⟨65, _⟩ => ⟨S400000x128, .f32⟩
  | .hbm, ⟨66, _⟩ => ⟨S_, .f32⟩
  | .hbm, ⟨67, _⟩ => ⟨S200000x128, .f32⟩
  | .hbm, ⟨68, _⟩ => ⟨S400000x1, .i32⟩
  | .hbm, ⟨69, _⟩ => ⟨S200000x128, .f32⟩
  | .hbm, ⟨70, _⟩ => ⟨S200000x128, .f32⟩
  | .hbm, ⟨71, _⟩ => ⟨S_, .i32⟩
  | .hbm, ⟨72, _⟩ => ⟨S400000, .i32⟩
  | .hbm, ⟨73, _⟩ => ⟨S400000, .i1⟩
  | .hbm, ⟨74, _⟩ => ⟨S_, .i32⟩
  | .hbm, ⟨75, _⟩ => ⟨S400000, .i32⟩
  | .hbm, ⟨76, _⟩ => ⟨S400000, .i32⟩
  | .hbm, ⟨77, _⟩ => ⟨S400000, .i32⟩
  | .hbm, ⟨78, _⟩ => ⟨S400000x1, .i32⟩
  | .hbm, ⟨79, _⟩ => ⟨S400000x128, .f32⟩
  | .hbm, ⟨80, _⟩ => ⟨S400000x1, .f32⟩
  | .hbm, ⟨81, _⟩ => ⟨S400000x128, .f32⟩
  | .hbm, ⟨82, _⟩ => ⟨S400000x128, .f32⟩
  | .hbm, ⟨83, _⟩ => ⟨S_, .f32⟩
  | .hbm, ⟨84, _⟩ => ⟨S200000x128, .f32⟩
  | .hbm, ⟨85, _⟩ => ⟨S400000x1, .i32⟩
  | .hbm, ⟨86, _⟩ => ⟨S200000x128, .f32⟩
  | .hbm, ⟨87, _⟩ => ⟨S200000x2, .f32⟩
  | .hbm, ⟨88, _⟩ => ⟨S_, .i32⟩
  | .hbm, ⟨89, _⟩ => ⟨S400000, .i32⟩
  | .hbm, ⟨90, _⟩ => ⟨S400000, .i1⟩
  | .hbm, ⟨91, _⟩ => ⟨S_, .i32⟩
  | .hbm, ⟨92, _⟩ => ⟨S400000, .i32⟩
  | .hbm, ⟨93, _⟩ => ⟨S400000, .i32⟩
  | .hbm, ⟨94, _⟩ => ⟨S400000, .i32⟩
  | .hbm, ⟨95, _⟩ => ⟨S400000x1, .i32⟩
  | .hbm, ⟨96, _⟩ => ⟨S400000x2, .f32⟩
  | .hbm, ⟨97, _⟩ => ⟨S400000x1, .f32⟩
  | .hbm, ⟨98, _⟩ => ⟨S400000x2, .f32⟩
  | .hbm, ⟨99, _⟩ => ⟨S400000x2, .f32⟩
  | .hbm, ⟨100, _⟩ => ⟨S_, .f32⟩
  | .hbm, ⟨101, _⟩ => ⟨S200000x2, .f32⟩
  | .hbm, ⟨102, _⟩ => ⟨S400000x1, .i32⟩
  | .hbm, ⟨103, _⟩ => ⟨S200000x2, .f32⟩
  | .hbm, ⟨104, _⟩ => ⟨S1x2, .f32⟩
  | .hbm, ⟨105, _⟩ => ⟨S200000x2, .f32⟩
  | .hbm, ⟨106, _⟩ => ⟨S200000x2, .f32⟩
  | .hbm, ⟨107, _⟩ => ⟨S_, .f32⟩
  | .hbm, ⟨108, _⟩ => ⟨S200000x2, .f32⟩
  | .hbm, ⟨109, _⟩ => ⟨S200000x2, .f32⟩
  | .hbm, ⟨110, _⟩ => ⟨S_, .f32⟩
  | .hbm, ⟨111, _⟩ => ⟨S200000, .f32⟩
  | .hbm, ⟨112, _⟩ => ⟨S_, .f32⟩
  | .hbm, ⟨113, _⟩ => ⟨S200000, .f32⟩
  | .hbm, ⟨114, _⟩ => ⟨S200000, .f32⟩
  | .hbm, ⟨115, _⟩ => ⟨S200000x1, .f32⟩
  | .hbm, ⟨116, _⟩ => ⟨S200000x2, .f32⟩
  | .hbm, ⟨117, _⟩ => ⟨S200000x2, .f32⟩
  | .hbm, ⟨118, _⟩ => ⟨S200000x2, .f32⟩
  | .hbm, ⟨119, _⟩ => ⟨S_, .f32⟩
  | .hbm, ⟨120, _⟩ => ⟨S200000, .f32⟩
  | .hbm, ⟨121, _⟩ => ⟨S200000x1, .f32⟩
  | .hbm, ⟨122, _⟩ => ⟨S200000x1, .f32⟩
  | .hbm, ⟨123, _⟩ => ⟨S200000x2, .f32⟩
  | .hbm, ⟨124, _⟩ => ⟨S200000x2, .f32⟩
  | .local _ .vmem, ⟨0, _⟩ => ⟨S8000x1, .f32⟩
  | .local _ .vmem, ⟨1, _⟩ => ⟨S8000x1, .f32⟩
  | .local _ .vmem, ⟨2, _⟩ => ⟨S1x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S128, .f32⟩
  | .local _ .vmem, ⟨8, _⟩ => ⟨S128x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S8000x128, .f32⟩
  | .local _ .vmem, ⟨13, _⟩ => ⟨S128, .f32⟩
  | .local _ .vmem, ⟨14, _⟩ => ⟨S128x2, .f32⟩
  | .local _ .vmem, ⟨15, _⟩ => ⟨S8000x2, .f32⟩
  | .local _ .vmem, ⟨16, _⟩ => ⟨S8000x2, .f32⟩
  | _, _ => ⟨S2x200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_call1_cst : Ref sig .tc := ⟨.hbm, 107, rfl⟩
abbrev main_call1_v0 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_call2_cst_0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_cst_1 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_v80 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  concatenates_S200000_S200000_S400000_d0 : Shape.Concatenates [S200000, S200000] S400000 0
  bcast_S_S200000 : S_.BroadcastsInDim S200000 (![] : Fin 0 → Fin S200000.rank)
  bcast_S400000_S400000x1_0 : S400000.BroadcastsInDim S400000x1 (![0] : Fin 1 → Fin S400000x1.rank)
  bcast_S_S400000 : S_.BroadcastsInDim S400000 (![] : Fin 0 → Fin S400000.rank)
  bcast_S200000_S200000x1_0 : S200000.BroadcastsInDim S200000x1 (![0] : Fin 1 → Fin S200000x1.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  inb_S8000x128_S8000x128_0_0 : ∀ a, (![0, 0] : Fin 2 → Nat) a + S8000x128.size a ≤ S8000x128.size a
  h_S8000x128 : 0 < S8000x128.numel
  bcast_S400000x1_S400000x128_0_1 : S400000x1.BroadcastsInDim S400000x128 (![0, 1] : Fin 2 → Fin S400000x128.rank)
  bcast_S_S200000x128 : S_.BroadcastsInDim S200000x128 (![] : Fin 0 → Fin S200000x128.rank)
  shapeCasts_S8000x128_S8000x128 : S8000x128.ShapeCasts S8000x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  inb_S128x2_S128x2_0_0 : ∀ a, (![0, 0] : Fin 2 → Nat) a + S128x2.size a ≤ S128x2.size a
  h_S128x2 : 0 < S128x2.numel
  inb_S8000x2_S8000x2_0_0 : ∀ a, (![0, 0] : Fin 2 → Nat) a + S8000x2.size a ≤ S8000x2.size a
  h_S8000x2 : 0 < S8000x2.numel
  bcast_S400000x1_S400000x2_0_1 : S400000x1.BroadcastsInDim S400000x2 (![0, 1] : Fin 2 → Fin S400000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  bcast_S200000x1_S200000x2_0_1 : S200000x1.BroadcastsInDim S200000x2 (![0, 1] : Fin 2 → Fin S200000x2.rank)
  scatter_S200000_S400000x1_S400000_n_0_0_1_wf : ScatterDims.WF S200000 S400000x1 S400000 [] [0] [0] 1
  gather_S200000_S400000x1_S400000_n_0_n_n_0_1_1_wf : GatherDims.WF S200000 S400000x1 S400000 [] [0] [] [0] [] 1 ![1]
  dot_S8000x1_S1x128_S8000x128_1_0_0_1_n_n_wf : DotDims.WF S8000x1 S1x128 S8000x128 [1] [0] [0] [1] [] []
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  dot_S8000x128_S128x128_S8000x128_1_0_0_1_n_n_wf : DotDims.WF S8000x128 S128x128 S8000x128 [1] [0] [0] [1] [] []
  dot_S8000x128_S128x2_S8000x2_1_0_0_1_n_n_wf : DotDims.WF S8000x128 S128x2 S8000x2 [1] [0] [0] [1] [] []
  gather_S200000x2_S400000x1_S400000x2_1_0_n_n_0_1_12_wf : GatherDims.WF S200000x2 S400000x1 S400000x2 [1] [0] [] [0] [] 1 ![1, 2]
  scatter_S200000x2_S400000x1_S400000x2_1_0_0_1_wf : ScatterDims.WF S200000x2 S400000x1 S400000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S200000x1.size a
  hwx0_0 : ∀ i : grid0.Coords, EltTy.bits .f32 = 32 ∨ (Rect.block (s := S200000x1) S8000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S200000x128.size a
  hwx0_2 : ∀ i : grid0.Coords, EltTy.bits .f32 = 32 ∨ (Rect.block (s := S200000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S200000x128.size a
  hwx1_0 : ∀ i : grid1.Coords, EltTy.bits .f32 = 32 ∨ (Rect.block (s := S200000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S200000x128.size a
  hwx1_3 : ∀ i : grid1.Coords, EltTy.bits .f32 = 32 ∨ (Rect.block (s := S200000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S200000x128.size a
  hwx2_0 : ∀ i : grid2.Coords, EltTy.bits .f32 = 32 ∨ (Rect.block (s := S200000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x2.size a ≤ S128x2.size a
  hwx2_2 : ∀ i : grid2.Coords, EltTy.bits .f32 = 32 ∨ (Rect.block (s := S128x2) S128x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x2.size a ≤ S200000x2.size a
  hwx2_3 : ∀ i : grid2.Coords, EltTy.bits .f32 = 32 ∨ (Rect.block (s := S200000x2) S8000x2.size (cc2_transform_3 i) (hinb2_3 i)).WholeWords (EltTy.packing .f32)

variable [Facts₀]

def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def gather_S200000_S400000x1_S400000_n_0_n_n_0_1_1 : GatherDims S200000 S400000x1 S400000 where
  offsetDims := []
  collapsedSliceDims := [0]
  operandBatchingDims := []
  startIndicesBatchingDims := []
  startIndexMap := [0]
  indexVectorDim := 1
  sliceSizes := ![1]
  wf := gather_S200000_S400000x1_S400000_n_0_n_n_0_1_1_wf
def dot_S8000x1_S1x128_S8000x128_1_0_0_1_n_n : DotDims S8000x1 S1x128 S8000x128 where
  lhsContracting := [1]
  rhsContracting := [0]
  lhsNonContracting := [0]
  rhsNonContracting := [1]
  lhsBatch := []
  rhsBatch := []
  wf := dot_S8000x1_S1x128_S8000x128_1_0_0_1_n_n_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x2_S8000x2_1_0_0_1_n_n : DotDims S8000x128 S128x2 S8000x2 where
  lhsContracting := [1]
  rhsContracting := [0]
  lhsNonContracting := [0]
  rhsNonContracting := [1]
  lhsBatch := []
  rhsBatch := []
  wf := dot_S8000x128_S128x2_S8000x2_1_0_0_1_n_n_wf
def gather_S200000x2_S400000x1_S400000x2_1_0_n_n_0_1_12 : GatherDims S200000x2 S400000x1 S400000x2 where
  offsetDims := [1]
  collapsedSliceDims := [0]
  operandBatchingDims := []
  startIndicesBatchingDims := []
  startIndexMap := [0]
  indexVectorDim := 1
  sliceSizes := ![1, 2]
  wf := gather_S200000x2_S400000x1_S400000x2_1_0_n_n_0_1_12_wf
def scatter_S200000x2_S400000x1_S400000x2_1_0_0_1 : ScatterDims S200000x2 S400000x1 S400000x2 where
  updateWindowDims := [1]
  insertedWindowDims := [0]
  scatterDimsToOperandDims := [0]
  indexVectorDim := 1
  wf := scatter_S200000x2_S400000x1_S400000x2_1_0_0_1_wf

abbrev win0_0 : Pipeline.Window sig grid0 :=
  Pipeline.Window.ofSpec (Memref.whole main_v33) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S8000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x200000 : Shape := ⟨2, ![2, 200000]⟩
abbrev S200000 : Shape := ⟨1, ![200000]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x200000 : Shape := ⟨2, ![1, 200000]⟩
abbrev S400000 : Shape := ⟨1, ![400000]⟩
abbrev S_ : Shape := ⟨0, ![]⟩
abbrev S400000x1 : Shape := ⟨2, ![400000, 1]⟩
abbrev S200000x1 : Shape := ⟨2, ![200000, 1]⟩
abbrev S200000x128 : Shape := ⟨2, ![200000, 128]⟩
abbrev S400000x128 : Shape := ⟨2, ![400000, 128]⟩
abbrev S200000x2 : Shape := ⟨2, ![200000, 2]⟩
abbrev S400000x2 : Shape := ⟨2, ![400000, 2]⟩
abbrev S1x2 : Shape := ⟨2, ![1, 2]⟩

abbrev nBuf : Space → Nat
  | .hbm => 137
  | .vmem => 0
  | .smem => 0
  | _ => 0

abbrev hbmTy0_0 (i : Nat) : BufTy := match i % 128 with
  | 0 => ⟨S2x200000, .i32⟩
  | 1 => ⟨S200000, .f32⟩
  | 2 => ⟨S1x128, .f32⟩
  | 3 => ⟨S128, .f32⟩
  | 4 => ⟨S128x128, .f32⟩
  | 5 => ⟨S128, .f32⟩
  | 6 => ⟨S128x2, .f32⟩
  | 7 => ⟨S2, .f32⟩
  | 8 => ⟨S1x200000, .i32⟩
  | 9 => ⟨S200000, .i32⟩
  | 10 => ⟨S1x200000, .i32⟩
  | 11 => ⟨S200000, .i32⟩
  | 12 => ⟨S200000, .i32⟩
  | 13 => ⟨S400000, .i32⟩
  | 14 => ⟨S400000, .i32⟩
  | 15 => ⟨S_, .f32⟩
  | 16 => ⟨S200000, .f32⟩
  | 17 => ⟨S400000, .f32⟩
  | 18 => ⟨S_, .f32⟩
  | 19 => ⟨S200000, .f32⟩
  | 20 => ⟨S400000x1, .i32⟩
  | 21 => ⟨S200000, .f32⟩
  | 22 => ⟨S_, .f32⟩
  | 23 => ⟨S200000, .f32⟩
  | 24 => ⟨S200000, .i1⟩
  | 25 => ⟨S_, .f32⟩
  | 26 => ⟨S200000, .f32⟩
  | 27 => ⟨S200000, .f32⟩
  | 28 => ⟨S_, .f32⟩
  | 29 => ⟨S_, .f32⟩
  | 30 => ⟨S200000, .f32⟩
  | 31 => ⟨S200000, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000, .f32⟩
  | 41 => ⟨S400000, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000, .f32⟩
  | 51 => ⟨S400000, .f32⟩
  | 52 => ⟨S200000x1, .f32⟩
  | 53 => ⟨S200000x128, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000x128, .f32⟩
  | 63 => ⟨S400000x1, .f32⟩
  | 64 => ⟨S400000x128, .f32⟩
  | 65 => ⟨S400000x128, .f32⟩
  | 66 => ⟨S_, .f32⟩
  | 67 => ⟨S200000x128, .f32⟩
  | 68 => ⟨S400000x1, .i32⟩
  | 69 => ⟨S200000x128, .f32⟩
  | 70 => ⟨S1x128, .f32⟩
  | 71 => ⟨S200000x128, .f32⟩
  | 72 => ⟨S200000x128, .f32⟩
  | 73 => ⟨S_, .f32⟩
  | 74 => ⟨S200000x128, .f32⟩
  | 75 => ⟨S200000x128, .f32⟩
  | 76 => ⟨S200000x128, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000x128, .f32⟩
  | 86 => ⟨S400000x1, .f32⟩
  | 87 => ⟨S400000x128, .f32⟩
  | 88 => ⟨S400000x128, .f32⟩
  | 89 => ⟨S_, .f32⟩
  | 90 => ⟨S200000x128, .f32⟩
  | 91 => ⟨S400000x1, .i32⟩
  | 92 => ⟨S200000x128, .f32⟩
  | 93 => ⟨S1x128, .f32⟩
  | 94 => ⟨S200000x128, .f32⟩
  | 95 => ⟨S200000x128, .f32⟩
  | 96 => ⟨S_, .f32⟩
  | 97 => ⟨S200000x128, .f32⟩
  | 98 => ⟨S200000x128, .f32⟩
  | 99 => ⟨S200000x2, .f32⟩
  | 100 => ⟨S_, .i32⟩
  | 101 => ⟨S400000, .i32⟩
  | 102 => ⟨S400000, .i1⟩
  | 103 => ⟨S_, .i32⟩
  | 104 => ⟨S400000, .i32⟩
  | 105 => ⟨S400000, .i32⟩
  | 106 => ⟨S400000, .i32⟩
  | 107 => ⟨S400000x1, .i32⟩
  | 108 => ⟨S400000x2, .f32⟩
  | 109 => ⟨S400000x1, .f32⟩
  | 110 => ⟨S400000x2, .f32⟩
  | 111 => ⟨S400000x2, .f32⟩
  | 112 => ⟨S_, .f32⟩
  | 113 => ⟨S200000x2, .f32⟩
  | 114 => ⟨S400000x1, .i32⟩
  | 115 => ⟨S200000x2, .f32⟩
  | 116 => ⟨S1x2, .f32⟩
  | 117 => ⟨S200000x2, .f32⟩
  | 118 => ⟨S200000x2, .f32⟩
  | 119 => ⟨S_, .f32⟩
  | 120 => ⟨S200000x2, .f32⟩
  | 121 => ⟨S200000x2, .f32⟩
  | 122 => ⟨S_, .f32⟩
  | 123 => ⟨S200000, .f32⟩
  | 124 => ⟨S_, .f32⟩
  | 125 => ⟨S200000, .f32⟩
  | 126 => ⟨S200000, .f32⟩
  | 127 => ⟨S200000x1, .f32⟩
  | _ => ⟨S2x200000, .i32⟩

abbrev hbmTy0_1 (i : Nat) : BufTy := match i % 128 with
  | 0 => ⟨S200000x2, .f32⟩
  | 1 => ⟨S200000x2, .f32⟩
  | 2 => ⟨S200000x2, .f32⟩
  | 3 => ⟨S_, .f32⟩
  | 4 => ⟨S200000, .f32⟩
  | 5 => ⟨S200000x1, .f32⟩
  | 6 => ⟨S200000x1, .f32⟩
  | 7 => ⟨S200000x2, .f32⟩
  | 8 => ⟨S200000x2, .f32⟩
  | _ => ⟨S2x200000, .i32⟩

abbrev hbmTy (i : Nat) : BufTy := match i / 128 with
  | 0 => hbmTy0_0 i
  | 1 => hbmTy0_1 i
  | _ => ⟨S2x200000, .i32⟩

abbrev bufTy : (tb : Table) → Fin (tcTables nBuf tb) → BufTy
  | .hbm, ⟨i, _⟩ => hbmTy i
  | _, _ => ⟨S2x200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call2_cst : Ref sig .tc := ⟨.hbm, 96, rfl⟩
abbrev main_call2_v0 : Ref sig .tc := ⟨.hbm, 97, rfl⟩
abbrev main_v69 : Ref sig .tc := ⟨.hbm, 98, rfl⟩
abbrev main_v70 : Ref sig .tc := ⟨.hbm, 99, rfl⟩
abbrev main_c_13 : Ref sig .tc := ⟨.hbm, 100, rfl⟩
abbrev main_v71 : Ref sig .tc := ⟨.hbm, 101, rfl⟩
abbrev main_v72 : Ref sig .tc := ⟨.hbm, 102, rfl⟩
abbrev main_c_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call3_cst : Ref sig .tc := ⟨.hbm, 119, rfl⟩
abbrev main_call3_v0 : Ref sig .tc := ⟨.hbm, 120, rfl⟩
abbrev main_v87 : Ref sig .tc := ⟨.hbm, 121, rfl⟩
abbrev main_call4_cst : Ref sig .tc := ⟨.hbm, 122, rfl⟩
abbrev main_call4_v0 : Ref sig .tc := ⟨.hbm, 123, rfl⟩
abbrev main_call4_cst_0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_v6 : Ref sig .tc := ⟨.hbm, 130, rfl⟩
abbrev main_call4_cst_1 : Ref sig .tc := ⟨.hbm, 131, rfl⟩
abbrev main_call4_v7 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  concatenates_S200000_S200000_S400000_d0 : Shape.Concatenates [S200000, S200000] S400000 0
  bcast_S_S200000 : S_.BroadcastsInDim S200000 (![] : Fin 0 → Fin S200000.rank)
  bcast_S400000_S400000x1_0 : S400000.BroadcastsInDim S400000x1 (![0] : Fin 1 → Fin S400000x1.rank)
  bcast_S_S400000 : S_.BroadcastsInDim S400000 (![] : Fin 0 → Fin S400000.rank)
  bcast_S200000_S200000x1_0 : S200000.BroadcastsInDim S200000x1 (![0] : Fin 1 → Fin S200000x1.rank)
  bcast_S400000x1_S400000x128_0_1 : S400000x1.BroadcastsInDim S400000x128 (![0, 1] : Fin 2 → Fin S400000x128.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S400000x1_S400000x2_0_1 : S400000x1.BroadcastsInDim S400000x2 (![0, 1] : Fin 2 → Fin S400000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  bcast_S200000x1_S200000x2_0_1 : S200000x1.BroadcastsInDim S200000x2 (![0, 1] : Fin 2 → Fin S200000x2.rank)
  scatter_S200000_S400000x1_S400000_n_0_0_1_wf : ScatterDims.WF S200000 S400000x1 S400000 [] [0] [0] 1
  gather_S200000_S400000x1_S400000_n_0_n_n_0_1_1_wf : GatherDims.WF S200000 S400000x1 S400000 [] [0] [] [0] [] 1 ![1]
  dot_S200000x1_S1x128_S200000x128_1_0_0_1_n_n_wf : DotDims.WF S200000x1 S1x128 S200000x128 [1] [0] [0] [1] [] []
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  dot_S200000x128_S128x128_S200000x128_1_0_0_1_n_n_wf : DotDims.WF S200000x128 S128x128 S200000x128 [1] [0] [0] [1] [] []
  dot_S200000x128_S128x2_S200000x2_1_0_0_1_n_n_wf : DotDims.WF S200000x128 S128x2 S200000x2 [1] [0] [0] [1] [] []
  gather_S200000x2_S400000x1_S400000x2_1_0_n_n_0_1_12_wf : GatherDims.WF S200000x2 S400000x1 S400000x2 [1] [0] [] [0] [] 1 ![1, 2]
  scatter_S200000x2_S400000x1_S400000x2_1_0_0_1_wf : ScatterDims.WF S200000x2 S400000x1 S400000x2 [1] [0] [0] 1

variable [Facts₀]

def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def gather_S200000_S400000x1_S400000_n_0_n_n_0_1_1 : GatherDims S200000 S400000x1 S400000 where
  offsetDims := []
  collapsedSliceDims := [0]
  operandBatchingDims := []
  startIndicesBatchingDims := []
  startIndexMap := [0]
  indexVectorDim := 1
  sliceSizes := ![1]
  wf := gather_S200000_S400000x1_S400000_n_0_n_n_0_1_1_wf
def dot_S200000x1_S1x128_S200000x128_1_0_0_1_n_n : DotDims S200000x1 S1x128 S200000x128 where
  lhsContracting := [1]
  rhsContracting := [0]
  lhsNonContracting := [0]
  rhsNonContracting := [1]
  lhsBatch := []
  rhsBatch := []
  wf := dot_S200000x1_S1x128_S200000x128_1_0_0_1_n_n_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x2_S200000x2_1_0_0_1_n_n : DotDims S200000x128 S128x2 S200000x2 where
  lhsContracting := [1]
  rhsContracting := [0]
  lhsNonContracting := [0]
  rhsNonContracting := [1]
  lhsBatch := []
  rhsBatch := []
  wf := dot_S200000x128_S128x2_S200000x2_1_0_0_1_n_n_wf
def gather_S200000x2_S400000x1_S400000x2_1_0_n_n_0_1_12 : GatherDims S200000x2 S400000x1 S400000x2 where
  offsetDims := [1]
  collapsedSliceDims := [0]
  operandBatchingDims := []
  startIndicesBatchingDims := []
  startIndexMap := [0]
  indexVectorDim := 1
  sliceSizes := ![1, 2]
  wf := gather_S200000x2_S400000x1_S400000x2_1_0_n_n_0_1_12_wf
def scatter_S200000x2_S400000x1_S400000x2_1_0_0_1 : ScatterDims S200000x2 S400000x1 S400000x2 where
  updateWindowDims := [1]
  insertedWindowDims := [0]
  scatterDimsToOperandDims := [0]
  indexVectorDim := 1
  wf := scatter_S200000x2_S400000x1_S400000x2_1_0_0_1_wf

class Facts : Prop extends Facts₀ where

variable [Facts]
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.RefWalk.lean ====
/-
  The reference's @main read stage by stage.

  Its run leaves every buffer at the fold of its 129 operations over the launch contents. The fold is cut at the six
  places where a layer's product is taken: before the first product (the index vectors with the self-loops appended, the
  normalised edge weights, the feature column), the product, the aggregation, the bias-add with the maximum with zero and
  the second product, the second aggregation, the third such product, and the last aggregation with its bias, maximum
  with zero and log-softmax. At each cut the buffers that later operations read hold the value named for that operation
  (`val_…`, a function of the arguments); no later operation writes them, so they are carried unchanged. The result
  buffer therefore ends at the last stage of the arguments, and the arguments as launched.
-/
import proofs.«172178_j36017595744488_1_alg».proof.Proof.RefRead
import proofs.«172178_j36017595744488_1_alg».proof.Proof.LibHostWalk

set_option maxRecDepth 16384

noncomputable section

namespace Cert.ReferenceIdeal.Stages

open Idealize.ShloMosaic Idealize.ShloMosaic.TcCoe Idealize.SL.Sem Idealize.ShloMosaic.StableHlo
open Cert.ReferenceIdeal Cert.ReferenceIdeal.ValueP Cert.ReferenceIdeal.ReadP Cert.HostWalk

/-- Two lines of operations one after the other: the second runs from where the first ends. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

variable (m : (ℓ : Loc nD τ sig) → Buf (Elt Ideal) ℓ) (c : Dev nD)

/-- The buffer contents after each of the seven lists, from the launch contents. -/
def T1 : Valuation τ sig (Elt Ideal) := after ops1 (launchContents m c)
def T2 : Valuation τ sig (Elt Ideal) := after ops2 (T1 m c)
def T3 : Valuation τ sig (Elt Ideal) := after ops3 (T2 m c)
def T4 : Valuation τ sig (Elt Ideal) := after ops4 (T3 m c)
def T5 : Valuation τ sig (Elt Ideal) := after ops5 (T4 m c)
def T6 : Valuation τ sig (Elt Ideal) := after ops6 (T5 m c)
def T7 : Valuation τ sig (Elt Ideal) := after ops7 (T6 m c)

theorem fold_eq : after (ops (F := Ideal)) (launchContents m c) = T7 m c := by
  rw [ops_eq]
  simp only [after_append]
  rfl

/-! ## The arguments where a product reads them -/

theorem T1_arg2 : T1 m c (Proc.devRef .tc main_arg2) = (m ((c.tc : Thread nD τ).loc main_arg2)) := by
  show after ops1 (launchContents m c) (Proc.devRef .tc main_arg2) = _
  walk_back [ops1]

theorem T1_arg3 : T1 m c (Proc.devRef .tc main_arg3) = (m ((c.tc : Thread nD τ).loc main_arg3)) := by
  show after ops1 (launchContents m c) (Proc.devRef .tc main_arg3) = _
  walk_back [ops1]
theorem T2_arg3 : T2 m c (Proc.devRef .tc main_arg3) = (m ((c.tc : Thread nD τ).loc main_arg3)) := by
  show after ops2 (T1 m c) (Proc.devRef .tc main_arg3) = _
  walk_back [ops2]
  exact T1_arg3 m c
theorem T3_arg3 : T3 m c (Proc.devRef .tc main_arg3) = (m ((c.tc : Thread nD τ).loc main_arg3)) := by
  show after ops3 (T2 m c) (Proc.devRef .tc main_arg3) = _
  walk_back [ops3]
  exact T2_arg3 m c

theorem T1_arg4 : T1 m c (Proc.devRef .tc main_arg4) = (m ((c.tc : Thread nD τ).loc main_arg4)) := by
  show after ops1 (launchContents m c) (Proc.devRef .tc main_arg4) = _
  walk_back [ops1]
theorem T2_arg4 : T2 m c (Proc.devRef .tc main_arg4) = (m ((c.tc : Thread nD τ).loc main_arg4)) := by
  show after ops2 (T1 m c) (Proc.devRef .tc main_arg4) = _
  walk_back [ops2]
  exact T1_arg4 m c
theorem T3_arg4 : T3 m c (Proc.devRef .tc main_arg4) = (m ((c.tc : Thread nD τ).loc main_arg4)) := by
  show after ops3 (T2 m c) (Proc.devRef .tc main_arg4) = _
  walk_back [ops3]
  exact T2_arg4 m c

theorem T1_arg5 : T1 m c (Proc.devRef .tc main_arg5) = (m ((c.tc : Thread nD τ).loc main_arg5)) := by
  show after ops1 (launchContents m c) (Proc.devRef .tc main_arg5) = _
  walk_back [ops1]
theorem T2_arg5 : T2 m c (Proc.devRef .tc main_arg5) = (m ((c.tc : Thread nD τ).loc main_arg5)) := by
  show after ops2 (T1 m c) (Proc.devRef .tc main_arg5) = _
  walk_back [ops2]
  exact T1_arg5 m c
theorem T3_arg5 : T3 m c (Proc.devRef .tc main_arg5) = (m ((c.tc : Thread nD τ).loc main_arg5)) := by
  show after ops3 (T2 m c) (Proc.devRef .tc main_arg5) = _
  walk_back [ops3]
  exact T2_arg5 m c
theorem T4_arg5 : T4 m c (Proc.devRef .tc main_arg5) = (m ((c.tc : Thread nD τ).loc main_arg5)) := by
  show after ops4 (T3 m c) (Proc.devRef .tc main_arg5) = _
  walk_back [ops4]
  exact T3_arg5 m c
theorem T5_arg5 : T5 m c (Proc.devRef .tc main_arg5) = (m ((c.tc : Thread nD τ).loc main_arg5)) := by
  show after ops5 (T4 m c) (Proc.devRef .tc main_arg5) = _
  walk_back [ops5]
  exact T4_arg5 m c

theorem T1_arg6 : T1 m c (Proc.devRef .tc main_arg6) = (m ((c.tc : Thread nD τ).loc main_arg6)) := by
  show after ops1 (launchContents m c) (Proc.devRef .tc main_arg6) = _
  walk_back [ops1]
theorem T2_arg6 : T2 m c (Proc.devRef .tc main_arg6) = (m ((c.tc : Thread nD τ).loc main_arg6)) := by
  show after ops2 (T1 m c) (Proc.devRef .tc main_arg6) = _
  walk_back [ops2]
  exact T1_arg6 m c
theorem T3_arg6 : T3 m c (Proc.devRef .tc main_arg6) = (m ((c.tc : Thread nD τ).loc main_arg6)) := by
  show after ops3 (T2 m c) (Proc.devRef .tc main_arg6) = _
  walk_back [ops3]
  exact T2_arg6 m c
theorem T4_arg6 : T4 m c (Proc.devRef .tc main_arg6) = (m ((c.tc : Thread nD τ).loc main_arg6)) := by
  show after ops4 (T3 m c) (Proc.devRef .tc main_arg6) = _
  walk_back [ops4]
  exact T3_arg6 m c
theorem T5_arg6 : T5 m c (Proc.devRef .tc main_arg6) = (m ((c.tc : Thread nD τ).loc main_arg6)) := by
  show after ops5 (T4 m c) (Proc.devRef .tc main_arg6) = _
  walk_back [ops5]
  exact T4_arg6 m c

theorem T1_arg7 : T1 m c (Proc.devRef .tc main_arg7) = (m ((c.tc : Thread nD τ).loc main_arg7)) := by
  show after ops1 (launchContents m c) (Proc.devRef .tc main_arg7) = _
  walk_back [ops1]
theorem T2_arg7 : T2 m c (Proc.devRef .tc main_arg7) = (m ((c.tc : Thread nD τ).loc main_arg7)) := by
  show after ops2 (T1 m c) (Proc.devRef .tc main_arg7) = _
  walk_back [ops2]
  exact T1_arg7 m c
theorem T3_arg7 : T3 m c (Proc.devRef .tc main_arg7) = (m ((c.tc : Thread nD τ).loc main_arg7)) := by
  show after ops3 (T2 m c) (Proc.devRef .tc main_arg7) = _
  walk_back [ops3]
  exact T2_arg7 m c
theorem T4_arg7 : T4 m c (Proc.devRef .tc main_arg7) = (m ((c.tc : Thread nD τ).loc main_arg7)) := by
  show after ops4 (T3 m c) (Proc.devRef .tc main_arg7) = _
  walk_back [ops4]
  exact T3_arg7 m c
theorem T5_arg7 : T5 m c (Proc.devRef .tc main_arg7) = (m ((c.tc : Thread nD τ).loc main_arg7)) := by
  show after ops5 (T4 m c) (Proc.devRef .tc main_arg7) = _
  walk_back [ops5]
  exact T4_arg7 m c
theorem T6_arg7 : T6 m c (Proc.devRef .tc main_arg7) = (m ((c.tc : Thread nD τ).loc main_arg7)) := by
  show after ops6 (T5 m c) (Proc.devRef .tc main_arg7) = _
  walk_back [ops6]
  exact T5_arg7 m c

/-! ## The index vectors and the normalised edge weights, and their carriage to every later cut -/

theorem T1_v5 : T1 m c (Proc.devRef .tc main_v5) = val_main_v5 (F := Ideal) (m ((c.tc : Thread nD τ).loc main_arg0)) := by
  show after ops1 (launchContents m c) (Proc.devRef .tc main_v5) = _
  walk_back [ops1]
  rfl
theorem T2_v5 : T2 m c (Proc.devRef .tc main_v5) = val_main_v5 (F := Ideal) (m ((c.tc : Thread nD τ).loc main_arg0)) := by
  show after ops2 (T1 m c) (Proc.devRef .tc main_v5) = _
  walk_back [ops2]
  exact T1_v5 m c
theorem T3_v5 : T3 m c (Proc.devRef .tc main_v5) = val_main_v5 (F := Ideal) (m ((c.tc : Thread nD τ).loc main_arg0)) := by
  show after ops3 (T2 m c) (Proc.devRef .tc main_v5) = _
  walk_back [ops3]
  exact T2_v5 m c
theorem T4_v5 : T4 m c (Proc.devRef .tc main_v5) = val_main_v5 (F := Ideal) (m ((c.tc : Thread nD τ).loc main_arg0)) := by
  show after ops4 (T3 m c) (Proc.devRef .tc main_v5) = _
  walk_back [ops4]
  exact T3_v5 m c
theorem T5_v5 : T5 m c (Proc.devRef .tc main_v5) = val_main_v5 (F := Ideal) (m ((c.tc : Thread nD τ).loc main_arg0)) := by
  show after ops5 (T4 m c) (Proc.devRef .tc main_v5) = _
  walk_back [ops5]
  exact T4_v5 m c
theorem T6_v5 : T6 m c (Proc.devRef .tc main_v5) = val_main_v5 (F := Ideal) (m ((c.tc : Thread nD τ).loc main_arg0)) := by
  show after ops6 (T5 m c) (Proc.devRef .tc main_v5) = _
  walk_back [ops6]
  exact T5_v5 m c

theorem T1_v6 : T1 m c (Proc.devRef .tc main_v6) = val_main_v6 (F := Ideal) (m ((c.tc : Thread nD τ).loc main_arg0)) := by
  show after ops1 (launchContents m c) (Proc.devRef .tc main_v6) = _
  walk_back [ops1]
  rfl
theorem T2_v6 : T2 m c (Proc.devRef .tc main_v6) = val_main_v6 (F := Ideal) (m ((c.tc : Thread nD τ).loc main_arg0)) := by
  show after ops2 (T1 m c) (Proc.devRef .tc main_v6) = _
  walk_back [ops2]
  exact T1_v6 m c
theorem T3_v6 : T3 m c (Proc.devRef .tc main_v6) = val_main_v6 (F := Ideal) (m ((c.tc : Thread nD τ).loc main_arg0)) := by
  show after ops3 (T2 m c) (Proc.devRef .tc main_v6) = _
  walk_back [ops3]
  exact T2_v6 m c
theorem T4_v6 : T4 m c (Proc.devRef .tc main_v6) = val_main_v6 (F := Ideal) (m ((c.tc : Thread nD τ).loc main_arg0)) := by
  show after ops4 (T3 m c) (Proc.devRef .tc main_v6) = _
  walk_back [ops4]
  exact T3_v6 m c
theorem T5_v6 : T5 m c (Proc.devRef .tc main_v6) = val_main_v6 (F := Ideal) (m ((c.tc : Thread nD τ).loc main_arg0)) := by
  show after ops5 (T4 m c) (Proc.devRef .tc main_v6) = _
  walk_back [ops5]
  exact T4_v6 m c
theorem T6_v6 : T6 m c (Proc.devRef .tc main_v6) = val_main_v6 (F := Ideal) (m ((c.tc : Thread nD τ).loc main_arg0)) := by
  show after ops6 (T5 m c) (Proc.devRef .tc main_v6) = _
  walk_back [ops6]
  exact T5_v6 m c

theorem T1_v32 : T1 m c (Proc.devRef .tc main_v32) = val_main_v32 (F := Ideal) (m ((c.tc : Thread nD τ).loc main_arg0)) (m ((c.tc : Thread nD τ).loc main_arg1)) := by
  show after ops1 (launchContents m c) (Proc.devRef .tc main_v32) = _
  walk_back [ops1]
  rfl
theorem T2_v32 : T2 m c (Proc.devRef .tc main_v32) = val_main_v32 (F := Ideal) (m ((c.tc : Thread nD τ).loc main_arg0)) (m ((c.tc : Thread nD τ).loc main_arg1)) := by
  show after ops2 (T1 m c) (Proc.devRef .tc main_v32) = _
  walk_back [ops2]
  exact T1_v32 m c
theorem T3_v32 : T3 m c (Proc.devRef .tc main_v32) = val_main_v32 (F := Ideal) (m ((c.tc : Thread nD τ).loc main_arg0)) (m ((c.tc : Thread nD τ).loc main_arg1)) := by
  show after ops3 (T2 m c) (Proc.devRef .tc main_v32) = _
  walk_back [ops3]
  exact T2_v32 m c
theorem T4_v32 : T4 m c (Proc.devRef .tc main_v32) = val_main_v32 (F := Ideal) (m ((c.tc : Thread nD τ).loc main_arg0)) (m ((c.tc : Thread nD τ).loc main_arg1)) := by
  show after ops4 (T3 m c) (Proc.devRef .tc main_v32) = _
  walk_back [ops4]
  exact T3_v32 m c
theorem T5_v32 : T5 m c (Proc.devRef .tc main_v32) = val_main_v32 (F := Ideal) (m ((c.tc : Thread nD τ).loc main_arg0)) (m ((c.tc : Thread nD τ).loc main_arg1)) := by
  show after ops5 (T4 m c) (Proc.devRef .tc main_v32) = _
  walk_back [ops5]
  exact T4_v32 m c
theorem T6_v32 : T6 m c (Proc.devRef .tc main_v32) = val_main_v32 (F := Ideal) (m ((c.tc : Thread nD τ).loc main_arg0)) (m ((c.tc : Thread nD τ).loc main_arg1)) := by
  show after ops6 (T5 m c) (Proc.devRef .tc main_v32) = _
  walk_back [ops6]
  exact T5_v32 m c

/-! ## The stages -/

theorem T1_v33 : T1 m c (Proc.devRef .tc main_v33) = val_main_v33 (F := Ideal) (m ((c.tc : Thread nD τ).loc main_arg1)) := by
  show after ops1 (launchContents m c) (Proc.devRef .tc main_v33) = _
  walk_back [ops1]
  rfl

theorem T2_v34 : T2 m c (Proc.devRef .tc main_v34) = val_main_v34 (F := Ideal) (m ((c.tc : Thread nD τ).loc main_arg1)) (m ((c.tc : Thread nD τ).loc main_arg2)) := by
  show after ops2 (T1 m c) (Proc.devRef .tc main_v34) = _
  walk_back [ops2, T1_v33 m c, T1_arg2 m c]
  rfl

theorem T3_v47 : T3 m c (Proc.devRef .tc main_v47) = val_main_v47 (F := Ideal) (m ((c.tc : Thread nD τ).loc main_arg0)) (m ((c.tc : Thread nD τ).loc main_arg1)) (m ((c.tc : Thread nD τ).loc main_arg2)) := by
  show after ops3 (T2 m c) (Proc.devRef .tc main_v47) = _
  walk_back [ops3, T2_v5 m c, T2_v6 m c, T2_v32 m c, T2_v34 m c]
  rfl

theorem T4_v52 : T4 m c (Proc.devRef .tc main_v52) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after ops4 (T3 m c) (Proc.devRef .tc main_v52) = _
  walk_back [ops4, T3_v47 m c, T3_arg3 m c, T3_arg4 m c]
  rfl

theorem T5_v65 : T5 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after ops5 (T4 m c) (Proc.devRef .tc main_v65) = _
  walk_back [ops5, T4_v5 m c, T4_v6 m c, T4_v32 m c, T4_v52 m c]
  rfl

theorem T6_v70 : T6 m c (Proc.devRef .tc main_v70) = val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after ops6 (T5 m c) (Proc.devRef .tc main_v70) = _
  walk_back [ops6, T5_v65 m c, T5_arg5 m c, T5_arg6 m c]
  rfl

theorem T7_v88 : T7 m c (Proc.devRef .tc main_v88) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after ops7 (T6 m c) (Proc.devRef .tc main_v88) = _
  walk_back [ops7, T6_v5 m c, T6_v6 m c, T6_v32 m c, T6_v70 m c, T6_arg7 m c]
  rfl

/-! ## The run, read -/

theorem fold_v88 : after (ops (F := Ideal)) (launchContents m c) (Proc.devRef .tc main_v88)
    = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [fold_eq]
  exact T7_v88 m c

theorem fold_arg0 : after ops (launchContents m c) (Proc.devRef .tc main_arg0) = (m ((c.tc : Thread nD τ).loc main_arg0)) := by
  after_results_simp <;> rfl
theorem fold_arg1 : after ops (launchContents m c) (Proc.devRef .tc main_arg1) = (m ((c.tc : Thread nD τ).loc main_arg1)) := by
  after_results_simp <;> rfl
theorem fold_arg2 : after ops (launchContents m c) (Proc.devRef .tc main_arg2) = (m ((c.tc : Thread nD τ).loc main_arg2)) := by
  after_results_simp <;> rfl
theorem fold_arg3 : after ops (launchContents m c) (Proc.devRef .tc main_arg3) = (m ((c.tc : Thread nD τ).loc main_arg3)) := by
  after_results_simp <;> rfl
theorem fold_arg4 : after ops (launchContents m c) (Proc.devRef .tc main_arg4) = (m ((c.tc : Thread nD τ).loc main_arg4)) := by
  after_results_simp <;> rfl
theorem fold_arg5 : after ops (launchContents m c) (Proc.devRef .tc main_arg5) = (m ((c.tc : Thread nD τ).loc main_arg5)) := by
  after_results_simp <;> rfl
theorem fold_arg6 : after ops (launchContents m c) (Proc.devRef .tc main_arg6) = (m ((c.tc : Thread nD τ).loc main_arg6)) := by
  after_results_simp <;> rfl
theorem fold_arg7 : after ops (launchContents m c) (Proc.devRef .tc main_arg7) = (m ((c.tc : Thread nD τ).loc main_arg7)) := by
  after_results_simp <;> rfl

/-- Every weakly fair execution of the reference terminates with its result at the last stage of the arguments and
    the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v88).trans (fold_v88 m c),
      (h c main_arg0).trans (fold_arg0 m c),
      (h c main_arg1).trans (fold_arg1 m c),
      (h c main_arg2).trans (fold_arg2 m c),
      (h c main_arg3).trans (fold_arg3 m c),
      (h c main_arg4).trans (fold_arg4 m c),
      (h c main_arg5).trans (fold_arg5 m c),
      (h c main_arg6).trans (fold_arg6 m c),
      (h c main_arg7).trans (fold_arg7 m c)⟩)
    (Cert.ReferenceIdeal.ValueP.run (F := Ideal) m ρ)

end Cert.ReferenceIdeal.Stages

end
-- ==== Proof.KernelRun.lean ====
/-
  The idealized kernel's run, with the result named.

  @main is eleven segments: stretches of host operations and three pipelined regions. Every weakly fair execution
  from a memory with zero counters runs them in order without a fault and terminates, and the unscoped buffers then
  hold the contents at the last boundary — the fold of the host stretches and of the regions' write-backs from the
  launch memory. Here that is read at the result buffer as well as at the eight arguments: the result ends at the
  last boundary's contents of its buffer, the arguments as launched.
-/
import proofs.«172178_j36017595744488_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_main : θ_run defs (onTc (τ := τ) (main (F := F))) ⟨m, fun _ => 0, ρ⟩ (fun r => ∀ c : Dev nD,
      r.2.mem ((c.tc : Thread nD τ).loc main_v80) = W11 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v80 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Run

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibWholeProduct.lean ====
/-
  The matrix product of an M×K array with a K×N array on the extended reals, as ONE function of the two arrays:
  entry (p, c) is Σ_{q < K} x[p, q] · w[q, c] (`mm`). The vector unit's product into a zero accumulator (whatever
  float formats its operands were cast to) and the host's dot_general (contract the left operand's axis 1 with the
  right operand's axis 0, no batch axes) are both this function, as whole arrays (`matmul_zero_eq`,
  `dotGeneral_eq`). An entry depends on one row of the left operand and one column of the right operand
  (`mm_eq_of_row_col`): two products of arrays of any heights and widths agree at a pair of entries whose row and
  column agree term by term — what a product computed a block of rows at a time needs. Any extents; no program.
-/
import proofs.«172178_j36017595744488_1_alg».proof.Proof.LibPlainDot

noncomputable section

open scoped BigOperators

namespace Cert.Product

open Idealize.ShloMosaic Idealize.ShloMosaic.ValueIdx Cert.PlainDot

/-- The product, entry by entry. -/
def mm {M K N : Nat} (x : (⟨2, ![M, K]⟩ : Shape).Idx → EReal) (w : (⟨2, ![K, N]⟩ : Shape).Idx → EReal) :
    (⟨2, ![M, N]⟩ : Shape).Idx → EReal :=
  fun i => ∑ q : Fin K, x (ix2 (i 0) q) * w (ix2 q (i 1))

theorem mm_apply {M K N : Nat} (x : (⟨2, ![M, K]⟩ : Shape).Idx → EReal) (w : (⟨2, ![K, N]⟩ : Shape).Idx → EReal)
    (p : Fin M) (c : Fin N) : mm x w (ix2 p c) = ∑ q : Fin K, x (ix2 p q) * w (ix2 q c) := rfl

/-- An entry of a product depends on one row of the left operand and one column of the right operand: two products,
    of arrays of any heights and widths, agree at a pair of entries whose row and column agree term by term. -/
theorem mm_eq_of_row_col {M K N M' N' : Nat}
    (x : (⟨2, ![M, K]⟩ : Shape).Idx → EReal) (w : (⟨2, ![K, N]⟩ : Shape).Idx → EReal)
    (x' : (⟨2, ![M', K]⟩ : Shape).Idx → EReal) (w' : (⟨2, ![K, N']⟩ : Shape).Idx → EReal)
    (i : (⟨2, ![M, N]⟩ : Shape).Idx) (i' : (⟨2, ![M', N']⟩ : Shape).Idx)
    (hx : ∀ q : Fin K, x (ix2 (i 0) q) = x' (ix2 (i' 0) q)) (hw : ∀ q : Fin K, w (ix2 q (i 1)) = w' (ix2 q (i' 1))) :
    mm x w i = mm x' w' i' :=
  Finset.sum_congr rfl fun q _ => by rw [hx q, hw q]

variable {M K N : Nat} {d : DotDims ⟨2, ![M, K]⟩ ⟨2, ![K, N]⟩ ⟨2, ![M, N]⟩}

/-- The host's dot_general of a plain product is `mm`. -/
theorem dotGeneral_eq (h : IsPlain d) (prec : Option ContractPrecision)
    (l : FVec Ideal ⟨2, ![M, K]⟩ .f32) (r : FVec Ideal ⟨2, ![K, N]⟩ .f32) :
    Host.dotGeneral d prec l r = mm l r := by
  funext i
  rw [eq_ix2 i]
  exact dotGeneral_apply h prec l r (i 0) (i 1)

/-- The vector unit's product into a zero accumulator is `mm`, whatever float formats the operands were cast to. -/
theorem matmul_zero_eq (h : IsPlain d) (prec : Option ContractPrecision) {φ₁ φ₂ : FTy}
    (l : FVec Ideal ⟨2, ![M, K]⟩ φ₁) (r : FVec Ideal ⟨2, ![K, N]⟩ φ₂) :
    matmul d prec l r (constant ⟨2, ![M, N]⟩ .f32 0x00000000#32) = mm (K := K) (fun i => l i) (fun i => r i) := by
  funext i
  rw [eq_ix2 i]
  exact matmul_zero_apply h prec l r (i 0) (i 1)

end Cert.Product

end
-- ==== Proof.LibLayerOps.lean ====
/-
  The operations of a dense layer read at one entry, on the extended reals (general lemmas: any extents).

  * a product against a weight matrix that is TRANSPOSED FIRST, as an operation of its own, and then multiplied
    plainly (x · Wᵀ with W of shape N×K): entry (p, c) is Σ_q x[p, q] · W[c, q] — for the vector unit's matmul into
    a zero accumulator and for the host's dot_general alike;
  * a bias vector of length C laid out as a 1×C row and repeated down the rows, by either spelling (a shape cast
    followed by a broadcast; two broadcasts by dimension map): entry (p, c) is the bias's entry c — for every C,
    the one-column case C = 1 included (there the row's only coordinate is 0, which is what a unit axis is read at).
-/
import proofs.«172178_j36017595744488_1_alg».proof.Proof.LibPlainDot
import Idealize.ShloMosaic.Lib.ValueLayout
import Idealize.ShloMosaic.Lib.Pipeline.Value

noncomputable section

open scoped BigOperators

namespace Cert.LayerOps

open Idealize.ShloMosaic Idealize.ShloMosaic.ValueIdx

variable {M K N : Nat} {d : DotDims ⟨2, ![M, K]⟩ ⟨2, ![K, N]⟩ ⟨2, ![M, N]⟩}

/-- The vector unit's product against a transposed weight matrix, into a zero accumulator, at entry (p, c). -/
theorem matmul_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    matmul d prec l (transpose ⟨2, ![K, N]⟩ [1, 0] w ht) (constant ⟨2, ![M, N]⟩ .f32 0x00000000#32) (ix2 p c)
      = ∑ q : Fin K, l (ix2 p q) * w (ix2 c q) :=
  (PlainDot.matmul_zero_apply h prec l (transpose ⟨2, ![K, N]⟩ [1, 0] w ht) p c).trans
    (Finset.sum_congr rfl fun q _ => congrArg (l (ix2 p q) * ·) (transpose_ix2_apply w ht q c))

/-- The host's product against a transposed weight matrix, at entry (p, c). -/
theorem dotGeneral_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    Host.dotGeneral d prec l (transpose ⟨2, ![K, N]⟩ [1, 0] w ht) (ix2 p c)
      = ∑ q : Fin K, l (ix2 p q) * w (ix2 c q) :=
  (PlainDot.dotGeneral_apply h prec l (transpose ⟨2, ![K, N]⟩ [1, 0] w ht) p c).trans
    (Finset.sum_congr rfl fun q _ => congrArg (l (ix2 p q) * ·) (transpose_ix2_apply w ht q c))

/-- A bias cast to a row and broadcast down R rows, at entry (p, c): any C. -/
theorem bias_cast_rows {α : Type} {R C : Nat} (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) :=
  (broadcastTo_1b_ab_apply (shapeCast ⟨2, ![1, C]⟩ v hs) hb p c).trans (shapeCast_a_1a_apply v hs 0 c)

/-- A coordinate below C is what a broadcast reads on an axis of extent C: itself, or 0 when C = 1 (then it IS 0). -/
private theorem coord_or_zero {C : Nat} (c : Fin C) : c.val = if C = 1 then 0 else c.val := by
  split
  · have := c.isLt; omega
  · rfl

/-- A bias broadcast to a row and then down N rows, both by dimension map, at entry (n, c): any C. -/
theorem bias_bcast_rows {α : Type} {R C : Nat} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (n : Fin R) (c : Fin C) :
    broadcastInDim ⟨2, ![R, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ => rfl
    | ⟨1, _⟩ => exact coord_or_zero c)).trans
  (broadcastInDim_apply ![1] h1 b (ix2 (0 : Fin 1) c) (ix1 c) (fun a => by
    match a with
    | ⟨0, _⟩ => exact coord_or_zero c))

end Cert.LayerOps

end
-- ==== Proof.LibHiddenLayer.lean ====
/-
  One hidden layer of the network on the extended reals, as whole-array functions of any extents.

  `hidden a b` adds the bias vector `b` to every row of the matrix `a` and takes the maximum with zero, entry by
  entry: entry (p, c) is max (a[p, c] + b[c]) 0. The layer's output is the product of that matrix with the weight
  matrix (`Cert.Product.mm`).

  Two spellings of the activation are both `hidden`:
  * the vector unit's — the bias as a 1×C row repeated down the rows, the zero a splat scalar; here the row is any
    1×C array whose entry (0, c) is b[c];
  * the host's — the bias broadcast to a 1×C row and then down the rows by dimension maps, the zero a rank-0
    constant broadcast over the array.

  An entry of `hidden a b` reads the same entry of `a` and one entry of `b`; so the rows of `hidden a b` that a block
  of rows of `a` gives are that block of rows of `hidden` of the whole matrix (`hidden_congr`).
-/
import proofs.«172178_j36017595744488_1_alg».proof.Proof.LibWholeProduct
import proofs.«172178_j36017595744488_1_alg».proof.Proof.LibLayerOps

noncomputable section

namespace Cert.Layer

open Idealize.ShloMosaic Idealize.ShloMosaic.ValueIdx

/-- relu(a + b): the bias `b` added to every row, then the maximum with zero. -/
def hidden {M C : Nat} (a : (⟨2, ![M, C]⟩ : Shape).Idx → EReal) (b : (⟨1, ![C]⟩ : Shape).Idx → EReal) :
    (⟨2, ![M, C]⟩ : Shape).Idx → EReal :=
  fun i => max (a i + b (ix1 (i 1))) (Ideal.ofBits .f32 0x00000000#32)

theorem hidden_apply {M C : Nat} (a : (⟨2, ![M, C]⟩ : Shape).Idx → EReal) (b : (⟨1, ![C]⟩ : Shape).Idx → EReal)
    (p : Fin M) (c : Fin C) :
    hidden a b (ix2 p c) = max (a (ix2 p c) + b (ix1 c)) (Ideal.ofBits .f32 0x00000000#32) := rfl

/-- Two matrices of any heights whose entries agree at a pair of positions in the same column, under biases that
    agree at that column, give the same activation there. -/
theorem hidden_congr {M M' C : Nat} (a : (⟨2, ![M, C]⟩ : Shape).Idx → EReal) (a' : (⟨2, ![M', C]⟩ : Shape).Idx → EReal)
    (b b' : (⟨1, ![C]⟩ : Shape).Idx → EReal) (p : Fin M) (p' : Fin M') (c : Fin C)
    (h : a (ix2 p c) = a' (ix2 p' c)) (hb : b (ix1 c) = b' (ix1 c)) :
    hidden a b (ix2 p c) = hidden a' b' (ix2 p' c) := by
  rw [hidden_apply, hidden_apply, h, hb]

/-- The vector unit's spelling: a 1×C row holding the bias, repeated down the rows; a splat zero. -/
theorem hidden_unit {M C : Nat} (a : FVec Ideal ⟨2, ![M, C]⟩ .f32) (row : FVec Ideal ⟨2, ![1, C]⟩ .f32)
    (b : (⟨1, ![C]⟩ : Shape).Idx → EReal) (hrow : ∀ c : Fin C, row (ix2 (0 : Fin 1) c) = b (ix1 c))
    (hb : (⟨2, ![1, C]⟩ : Shape).Broadcasts ⟨2, ![M, C]⟩) :
    maximumf (addf a (broadcastTo ⟨2, ![M, C]⟩ row hb))
        (broadcast ⟨2, ![M, C]⟩ (Scalar.ofBits (F := Ideal) .f32 0x00000000#32)) = hidden a b := by
  funext i
  rw [eq_ix2 i]
  show max (a (ix2 (i 0) (i 1)) + broadcastTo ⟨2, ![M, C]⟩ row hb (ix2 (i 0) (i 1))) _ = _
  rw [broadcastTo_1b_ab_apply row hb (i 0) (i 1), hrow (i 1)]
  rfl

/-- A rank-0 value broadcast over a matrix reads that value everywhere. -/
theorem splat_apply {α : Type} {M C : Nat} (dims : Fin 0 → Fin 2)
    (h0 : (⟨0, ![]⟩ : Shape).BroadcastsInDim ⟨2, ![M, C]⟩ dims) (x : (⟨0, ![]⟩ : Shape).Idx → α)
    (i : (⟨2, ![M, C]⟩ : Shape).Idx) : broadcastInDim ⟨2, ![M, C]⟩ dims h0 x i = x ix0 :=
  broadcastInDim_apply dims h0 x i ix0 (fun a => a.elim0)

/-- The host's spelling: the bias broadcast to a row and down the rows by dimension maps; a rank-0 zero
    broadcast over the array. -/
theorem hidden_host {M C : Nat} (a : FVec Ideal ⟨2, ![M, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![M, C]⟩ ![0, 1])
    (dims : Fin 0 → Fin 2) (h0 : (⟨0, ![]⟩ : Shape).BroadcastsInDim ⟨2, ![M, C]⟩ dims) :
    maximumf (addf a (broadcastInDim ⟨2, ![M, C]⟩ ![0, 1] h2 (broadcastInDim ⟨2, ![1, C]⟩ ![1] h1 b)))
        (broadcastInDim ⟨2, ![M, C]⟩ dims h0 (constant (F := Ideal) ⟨0, ![]⟩ .f32 0x00000000#32)) = hidden a b := by
  funext i
  rw [eq_ix2 i]
  show max (a (ix2 (i 0) (i 1))
      + broadcastInDim ⟨2, ![M, C]⟩ ![0, 1] h2 (broadcastInDim ⟨2, ![1, C]⟩ ![1] h1 b) (ix2 (i 0) (i 1)))
    (broadcastInDim ⟨2, ![M, C]⟩ dims h0 (constant (F := Ideal) ⟨0, ![]⟩ .f32 0x00000000#32) (ix2 (i 0) (i 1))) = _
  rw [LayerOps.bias_bcast_rows b h1 h2 (i 0) (i 1), splat_apply]
  rfl

/-- A length-C vector reshaped to a 1×C row holds the vector's entry c at (0, c). -/
theorem row_of_cast {C : Nat} (b : (⟨1, ![C]⟩ : Shape).Idx → EReal)
    (hs : (⟨1, ![C]⟩ : Shape).ShapeCasts ⟨2, ![1, C]⟩) (c : Fin C) :
    shapeCast ⟨2, ![1, C]⟩ b hs (ix2 (0 : Fin 1) c) = b (ix1 c) :=
  shapeCast_a_1a_apply b hs 0 c

end Cert.Layer

end
-- ==== Proof.Blocks.lean ====
/-
  What each of the three kernel bodies stores, as one function of the blocks it loads, on the extended reals.

  A change of float format is the identity on the extended reals, and a shape cast to the same shape changes
  nothing, so:
  * the first body stores the product of its 8000×1 block of node features with the 1×128 weight row;
  * the second and the third store the product of relu(x + b) with the weight matrix, where x is the 8000×128
    block of aggregated rows and b the length-128 bias laid out as a row and repeated down the rows.
-/
import proofs.«172178_j36017595744488_1_alg».proof.Proof.Gen.KernelIdeal.Skeleton
import proofs.«172178_j36017595744488_1_alg».proof.Proof.LibHiddenLayer

noncomputable section

namespace Cert.KernelIdeal.Blocks

open Idealize.ShloMosaic Idealize.ShloMosaic.ValueIdx Cert.KernelIdeal Cert.KernelIdeal.Gen
open Cert.PlainDot Cert.Product Cert.Layer

/-- All three products contract the left operand's columns against the right operand's rows. -/
theorem plain0 : IsPlain dot_S8000x1_S1x128_S8000x128_1_0_0_1_n_n := ⟨rfl, rfl, rfl, rfl, rfl, rfl⟩
theorem plain1 : IsPlain dot_S8000x128_S128x128_S8000x128_1_0_0_1_n_n := ⟨rfl, rfl, rfl, rfl, rfl, rfl⟩
theorem plain2 : IsPlain dot_S8000x128_S128x2_S8000x2_1_0_0_1_n_n := ⟨rfl, rfl, rfl, rfl, rfl, rfl⟩

/-- The first layer's body: the block of features times the weight row. -/
theorem pay0_eq (x0 : FVec Ideal S8000x1 .f32) (x1 : FVec Ideal S1x128 .f32) :
    k0_pay1 (F := Ideal) x0 x1 = mm (M := 8000) (K := 1) (N := 128) x0 x1 := by
  unfold k0_pay1
  dsimp only
  rw [shapeCast_self]
  exact matmul_zero_eq plain0 none _ _

/-- The second layer's body: relu(x + b) times the weight matrix. -/
theorem pay1_eq (x0 : FVec Ideal S8000x128 .f32) (x1 : FVec Ideal S128 .f32) (x2 : FVec Ideal S128x128 .f32) :
    k1_pay1 (F := Ideal) x0 x1 x2 = mm (M := 8000) (K := 128) (N := 128) (hidden x0 x1) x2 := by
  unfold k1_pay1
  dsimp only
  rw [shapeCast_self]
  refine (matmul_zero_eq plain1 none _ _).trans ?_
  show mm (maximumf (addf x0 (broadcastTo S8000x128 (shapeCast S1x128 x1 shapeCasts_S128_S1x128) broadcasts_S1x128_S8000x128))
      (broadcast S8000x128 (Scalar.ofBits (F := Ideal) .f32 0x00000000#32))) x2 = _
  rw [hidden_unit x0 (shapeCast S1x128 x1 shapeCasts_S128_S1x128) x1 (fun c => row_of_cast x1 shapeCasts_S128_S1x128 c)]

/-- The third layer's body: relu(x + b) times the 128×2 weight matrix. -/
theorem pay2_eq (x0 : FVec Ideal S8000x128 .f32) (x1 : FVec Ideal S128 .f32) (x2 : FVec Ideal S128x2 .f32) :
    k2_pay1 (F := Ideal) x0 x1 x2 = mm (M := 8000) (K := 128) (N := 2) (hidden x0 x1) x2 := by
  unfold k2_pay1
  dsimp only
  rw [shapeCast_self]
  refine (matmul_zero_eq plain2 none _ _).trans ?_
  show mm (maximumf (addf x0 (broadcastTo S8000x128 (shapeCast S1x128 x1 shapeCasts_S128_S1x128) broadcasts_S1x128_S8000x128))
      (broadcast S8000x128 (Scalar.ofBits (F := Ideal) .f32 0x00000000#32))) x2 = _
  rw [hidden_unit x0 (shapeCast S1x128 x1 shapeCasts_S128_S1x128) x1 (fun c => row_of_cast x1 shapeCasts_S128_S1x128 c)]

end Cert.KernelIdeal.Blocks

end
-- ==== Proof.Region0.lean ====
/-
  Layer 1 of the network as the region computes it: the column of node features times the 1×128 weight row, over all 200000 rows, on the extended reals.

  The output array is written one block of 8000 rows per grid point, point t writing rows 8000·t … 8000·t + 7999.
  Row 8000·t + p of the output is row p of what the body stores at point t, and that row depends only on row p of the
  point's input block — which is row 8000·t + p of the input array — and on the whole of the operands every point
  sees entire. So the 25 blocks are the blocks of ONE function of the arrays the region is entered with
  (`layer`), and together they cover the output array.
-/
import proofs.«172178_j36017595744488_1_alg».proof.Proof.Gen.KernelIdeal.Frame
import proofs.«172178_j36017595744488_1_alg».proof.Proof.Blocks
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Product Cert.Layer

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The layer's output as one function of the arrays the region is entered with: the 200000×1 column of node features and the weight row. -/
def layer (c : Dev nD) : S200000x128.Idx → EReal :=
  mm (M := 200000) (K := 1) (N := 128) (V c main_v33 : S200000x1.Idx → EReal) (V c main_arg2 : S1x128.Idx → EReal)

/-- The printed index maps over the grid: the row-blocked windows are at block (t, 0), the others at block 0. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

theorem point_lt (t : Fin cfg0.N) : t.val < 25 := lt_of_lt_of_eq t.isLt N_0

/-- Row p of the input block at point t is row 8000·t + p of the column of node features. -/
theorem rows_apply (c : Dev nD) (t : Fin cfg0.N) (p : Fin 8000) (q : Fin 1) (r : Fin 200000) (hr : r.val = 8000 * t.val + p.val) :
    (iblk0 V c 0 t : S8000x1.Idx → EReal) (ix2 p q) = (V c main_v33 : S200000x1.Idx → EReal) (ix2 r q) := by
  obtain ⟨ei0, ei1, ew0, ew1, eo0, eo1⟩ := idx t
  unfold iblk0
  rw [View.read_apply]
  show V c main_v33 _ = V c main_v33 _
  refine congrArg (V c main_v33) ?_
  funext a; apply Fin.ext
  match a with
  | ⟨0, _⟩ => show win0_0.index t (0 : Fin 2) * 8000 + 1 * p.val = r.val; rw [ei0, hr]; omega
  | ⟨1, _⟩ => show win0_0.index t (1 : Fin 2) * 1 + 1 * q.val = q.val; rw [ei1]; omega

/-- Every point sees the whole weight row. -/
theorem weights_apply (c : Dev nD) (t : Fin cfg0.N) (k : Fin 1) (q : Fin 128) :
    (iblk0 V c 1 t : S1x128.Idx → EReal) (ix2 k q) = (V c main_arg2 : S1x128.Idx → EReal) (ix2 k q) := by
  obtain ⟨ei0, ei1, ew0, ew1, eo0, eo1⟩ := idx t
  unfold iblk0
  rw [View.read_apply]
  show V c main_arg2 _ = V c main_arg2 _
  refine congrArg (V c main_arg2) ?_
  funext a; apply Fin.ext
  match a with
  | ⟨0, _⟩ => show win0_1.index t (0 : Fin 2) * 1 + 1 * k.val = k.val; rw [ew0]; omega
  | ⟨1, _⟩ => show win0_1.index t (1 : Fin 2) * 128 + 1 * q.val = q.val; rw [ew1]; omega

/-- What point t writes back is block t of `layer`. -/
theorem flushed_eq (c : Dev nD) (t : Fin cfg0.N) :
    (dat0 V c).flushed 2 t = ((cfg0.win 2).blk t).view.read (Elt Ideal) (layer V c) := by
  show (cfg0.win 2).cut (grid0.coords t) ((dat0 V c).after 2 t) = _
  rw [after0_2]
  unfold out0_2
  rw [View.canon_unit_zero hz2]
  simp only [View.ld_unit_zero (S := S8000x1) hz2, View.ld_unit_zero (S := S1x128) hz2]
  rw [Blocks.pay0_eq]
  funext j
  obtain ⟨p, q, rfl⟩ : ∃ (p : Fin 8000) (q : Fin 128), j = ix2 p q := ⟨j 0, j 1, eq_ix2 j⟩
  have ht := point_lt t
  have hP : 8000 * t.val + p.val < 200000 := by have := p.isLt; omega
  have hemb : ((cfg0.win 2).blk t).view.emb (ix2 p q) = ix2 (⟨8000 * t.val + p.val, hP⟩ : Fin 200000) q := by
    obtain ⟨ei0, ei1, ew0, ew1, eo0, eo1⟩ := idx t
    funext a; apply Fin.ext
    match a with
    | ⟨0, _⟩ => show win0_2.index t (0 : Fin 2) * 8000 + 1 * p.val = 8000 * t.val + p.val; rw [eo0]; omega
    | ⟨1, _⟩ => show win0_2.index t (1 : Fin 2) * 128 + 1 * q.val = q.val; rw [eo1]; omega
  show mm (M := 8000) (K := 1) (N := 128) (iblk0 V c 0 t) (iblk0 V c 1 t) (ix2 p q) = layer V c (((cfg0.win 2).blk t).view.emb (ix2 p q))
  rw [hemb]
  unfold layer
  refine mm_eq_of_row_col _ _ _ _ (ix2 p q) (ix2 (⟨8000 * t.val + p.val, hP⟩ : Fin 200000) q) (fun k => ?_) (fun k => ?_)
  · exact rows_apply V c t p k ⟨8000 * t.val + p.val, hP⟩ rfl
  · exact weights_apply V c t k q

/-- An index of the output array is in point t's block iff each coordinate is in the block's range on its axis. -/
theorem mem_blk (t : Fin cfg0.N) (i : S200000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v34).slice (win0_2.rect t)).set ↔ _
  rw [View.set_slice_whole, Rect.mem_set_unit]
  exact Iff.rfl

/-- Row r is in the block of point r / 8000: the blocks cover the array. -/
theorem cover (i : S200000x128.Idx) : ∃ t : Fin cfg0.N, (cfg0.win 2).flush t = true ∧ i ∈ ((cfg0.win 2).blk t).view.set := by
  have hi0 : (i 0).val < 200000 := (i 0).isLt
  have hi1 : (i 1).val < 128 := (i 1).isLt
  have hN : cfg0.N = 25 := N_0
  have hlt : (i 0).val / 8000 < cfg0.N := by rw [hN]; omega
  obtain ⟨ei0, ei1, ew0, ew1, eo0, eo1⟩ := idx ⟨(i 0).val / 8000, hlt⟩
  refine ⟨⟨(i 0).val / 8000, hlt⟩, flush0_2 _, ?_⟩
  rw [mem_blk]
  intro a
  match a with
  | ⟨0, _⟩ =>
    show win0_2.index ⟨(i 0).val / 8000, hlt⟩ (0 : Fin 2) * 8000 ≤ (i 0).val ∧ (i 0).val < win0_2.index ⟨(i 0).val / 8000, hlt⟩ (0 : Fin 2) * 8000 + 8000
    rw [eo0]
    show (i 0).val / 8000 * 8000 ≤ (i 0).val ∧ (i 0).val < (i 0).val / 8000 * 8000 + 8000
    omega
  | ⟨1, _⟩ =>
    show win0_2.index ⟨(i 0).val / 8000, hlt⟩ (1 : Fin 2) * 128 ≤ (i 1).val ∧ (i 1).val < win0_2.index ⟨(i 0).val / 8000, hlt⟩ (1 : Fin 2) * 128 + 128
    rw [eo1]
    omega

/-- The output array after the region is `layer` of the arrays it was entered with. -/
theorem final (c : Dev nD) : (dat0 V c).arrAt 2 cfg0.N = layer V c :=
  (dat0 V c).arrAt_eq_of_cover 2 (layer V c) (fun t _ => flushed_eq V c t) cover

end Cert.KernelIdeal.Region0

end
-- ==== Proof.Region1.lean ====
/-
  Layer 2 of the network as the region computes it: relu(x + b) · W over all 200000 rows, on the extended reals.

  The output array is written one block of 8000 rows per grid point, point t writing rows 8000·t … 8000·t + 7999.
  Row 8000·t + p of the output is row p of what the body stores at point t, and that row depends only on row p of the
  point's input block — which is row 8000·t + p of the input array — and on the whole of the operands every point
  sees entire. So the 25 blocks are the blocks of ONE function of the arrays the region is entered with
  (`layer`), and together they cover the output array.
-/
import proofs.«172178_j36017595744488_1_alg».proof.Proof.Gen.KernelIdeal.Frame
import proofs.«172178_j36017595744488_1_alg».proof.Proof.Blocks
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Product Cert.Layer

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The layer's output as one function of the arrays the region is entered with: the aggregated rows, the bias and the weight matrix. -/
def layer (c : Dev nD) : S200000x128.Idx → EReal :=
  mm (M := 200000) (K := 128) (N := 128)
    (hidden (V c main_v47 : S200000x128.Idx → EReal) (V c main_arg3 : S128.Idx → EReal)) (V c main_arg4 : S128x128.Idx → EReal)

/-- The printed index maps over the grid: the row-blocked windows are at block (t, 0), the others at block 0. -/
theorem idx : ∀ t : Fin cfg1.N, win1_0.index t (0 : Fin 2) = t.val ∧ win1_0.index t (1 : Fin 2) = 0
    ∧ win1_1.index t (0 : Fin 1) = 0 ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, win1_0.index t (0 : Fin 2) = t.val ∧ win1_0.index t (1 : Fin 2) = 0
    ∧ win1_1.index t (0 : Fin 1) = 0 ∧ win1_2.index t (0 : Fin 2) = 0 ∧ win1_2.index t (1 : Fin 2) = 0
    ∧ win1_3.index t (0 : Fin 2) = t.val ∧ win1_3.index t (1 : Fin 2) = 0)

theorem point_lt (t : Fin cfg1.N) : t.val < 25 := lt_of_lt_of_eq t.isLt N_1

/-- Row p of the input block at point t is row 8000·t + p of the input array. -/
theorem rows_apply (c : Dev nD) (t : Fin cfg1.N) (p : Fin 8000) (q : Fin 128) (r : Fin 200000) (hr : r.val = 8000 * t.val + p.val) :
    (iblk1 V c 0 t : S8000x128.Idx → EReal) (ix2 p q) = (V c main_v47 : S200000x128.Idx → EReal) (ix2 r q) := by
  obtain ⟨ei0, ei1, eb0, ew0, ew1, eo0, eo1⟩ := idx t
  unfold iblk1
  rw [View.read_apply]
  show V c main_v47 _ = V c main_v47 _
  refine congrArg (V c main_v47) ?_
  funext a; apply Fin.ext
  match a with
  | ⟨0, _⟩ => show win1_0.index t (0 : Fin 2) * 8000 + 1 * p.val = r.val; rw [ei0, hr]; omega
  | ⟨1, _⟩ => show win1_0.index t (1 : Fin 2) * 128 + 1 * q.val = q.val; rw [ei1]; omega

/-- Every point sees the whole bias. -/
theorem bias_apply (c : Dev nD) (t : Fin cfg1.N) (q : Fin 128) :
    (iblk1 V c 1 t : S128.Idx → EReal) (ix1 q) = (V c main_arg3 : S128.Idx → EReal) (ix1 q) := by
  obtain ⟨ei0, ei1, eb0, ew0, ew1, eo0, eo1⟩ := idx t
  unfold iblk1
  rw [View.read_apply]
  show V c main_arg3 _ = V c main_arg3 _
  refine congrArg (V c main_arg3) ?_
  funext a; apply Fin.ext
  match a with
  | ⟨0, _⟩ => show win1_1.index t (0 : Fin 1) * 128 + 1 * q.val = q.val; rw [eb0]; omega

/-- Every point sees the whole weight matrix. -/
theorem weights_apply (c : Dev nD) (t : Fin cfg1.N) (k : Fin 128) (q : Fin 128) :
    (iblk1 V c 2 t : S128x128.Idx → EReal) (ix2 k q) = (V c main_arg4 : S128x128.Idx → EReal) (ix2 k q) := by
  obtain ⟨ei0, ei1, eb0, ew0, ew1, eo0, eo1⟩ := idx t
  unfold iblk1
  rw [View.read_apply]
  show V c main_arg4 _ = V c main_arg4 _
  refine congrArg (V c main_arg4) ?_
  funext a; apply Fin.ext
  match a with
  | ⟨0, _⟩ => show win1_2.index t (0 : Fin 2) * 128 + 1 * k.val = k.val; rw [ew0]; omega
  | ⟨1, _⟩ => show win1_2.index t (1 : Fin 2) * 128 + 1 * q.val = q.val; rw [ew1]; omega

/-- What point t writes back is block t of `layer`. -/
theorem flushed_eq (c : Dev nD) (t : Fin cfg1.N) :
    (dat1 V c).flushed 3 t = ((cfg1.win 3).blk t).view.read (Elt Ideal) (layer V c) := by
  show (cfg1.win 3).cut (grid1.coords t) ((dat1 V c).after 3 t) = _
  rw [after1_3]
  unfold out1_3
  rw [View.canon_unit_zero hz2]
  simp only [View.ld_unit_zero (S := S8000x128) hz2, View.ld_unit_zero (S := S128) hz1, View.ld_unit_zero (S := S128x128) hz2]
  rw [Blocks.pay1_eq]
  funext j
  obtain ⟨p, q, rfl⟩ : ∃ (p : Fin 8000) (q : Fin 128), j = ix2 p q := ⟨j 0, j 1, eq_ix2 j⟩
  have ht := point_lt t
  have hP : 8000 * t.val + p.val < 200000 := by have := p.isLt; omega
  have hemb : ((cfg1.win 3).blk t).view.emb (ix2 p q) = ix2 (⟨8000 * t.val + p.val, hP⟩ : Fin 200000) q := by
    obtain ⟨ei0, ei1, eb0, ew0, ew1, eo0, eo1⟩ := idx t
    funext a; apply Fin.ext
    match a with
    | ⟨0, _⟩ => show win1_3.index t (0 : Fin 2) * 8000 + 1 * p.val = 8000 * t.val + p.val; rw [eo0]; omega
    | ⟨1, _⟩ => show win1_3.index t (1 : Fin 2) * 128 + 1 * q.val = q.val; rw [eo1]; omega
  show mm (M := 8000) (K := 128) (N := 128) (hidden (iblk1 V c 0 t) (iblk1 V c 1 t)) (iblk1 V c 2 t) (ix2 p q) = layer V c (((cfg1.win 3).blk t).view.emb (ix2 p q))
  rw [hemb]
  unfold layer
  refine mm_eq_of_row_col _ _ _ _ (ix2 p q) (ix2 (⟨8000 * t.val + p.val, hP⟩ : Fin 200000) q) (fun k => ?_) (fun k => ?_)
  · exact hidden_congr _ _ _ _ p (⟨8000 * t.val + p.val, hP⟩ : Fin 200000) k (rows_apply V c t p k ⟨8000 * t.val + p.val, hP⟩ rfl) (bias_apply V c t k)
  · exact weights_apply V c t k q

/-- An index of the output array is in point t's block iff each coordinate is in the block's range on its axis. -/
theorem mem_blk (t : Fin cfg1.N) (i : S200000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v48).slice (win1_3.rect t)).set ↔ _
  rw [View.set_slice_whole, Rect.mem_set_unit]
  exact Iff.rfl

/-- Row r is in the block of point r / 8000: the blocks cover the array. -/
theorem cover (i : S200000x128.Idx) : ∃ t : Fin cfg1.N, (cfg1.win 3).flush t = true ∧ i ∈ ((cfg1.win 3).blk t).view.set := by
  have hi0 : (i 0).val < 200000 := (i 0).isLt
  have hi1 : (i 1).val < 128 := (i 1).isLt
  have hN : cfg1.N = 25 := N_1
  have hlt : (i 0).val / 8000 < cfg1.N := by rw [hN]; omega
  obtain ⟨ei0, ei1, eb0, ew0, ew1, eo0, eo1⟩ := idx ⟨(i 0).val / 8000, hlt⟩
  refine ⟨⟨(i 0).val / 8000, hlt⟩, flush1_3 _, ?_⟩
  rw [mem_blk]
  intro a
  match a with
  | ⟨0, _⟩ =>
    show win1_3.index ⟨(i 0).val / 8000, hlt⟩ (0 : Fin 2) * 8000 ≤ (i 0).val ∧ (i 0).val < win1_3.index ⟨(i 0).val / 8000, hlt⟩ (0 : Fin 2) * 8000 + 8000
    rw [eo0]
    show (i 0).val / 8000 * 8000 ≤ (i 0).val ∧ (i 0).val < (i 0).val / 8000 * 8000 + 8000
    omega
  | ⟨1, _⟩ =>
    show win1_3.index ⟨(i 0).val / 8000, hlt⟩ (1 : Fin 2) * 128 ≤ (i 1).val ∧ (i 1).val < win1_3.index ⟨(i 0).val / 8000, hlt⟩ (1 : Fin 2) * 128 + 128
    rw [eo1]
    omega

/-- The output array after the region is `layer` of the arrays it was entered with. -/
theorem final (c : Dev nD) : (dat1 V c).arrAt 3 cfg1.N = layer V c :=
  (dat1 V c).arrAt_eq_of_cover 3 (layer V c) (fun t _ => flushed_eq V c t) cover

end Cert.KernelIdeal.Region1

end
-- ==== Proof.Region2.lean ====
/-
  Layer 3 of the network as the region computes it: relu(x + b) · W over all 200000 rows, on the extended reals.

  The output array is written one block of 8000 rows per grid point, point t writing rows 8000·t … 8000·t + 7999.
  Row 8000·t + p of the output is row p of what the body stores at point t, and that row depends only on row p of the
  point's input block — which is row 8000·t + p of the input array — and on the whole of the operands every point
  sees entire. So the 25 blocks are the blocks of ONE function of the arrays the region is entered with
  (`layer`), and together they cover the output array.
-/
import proofs.«172178_j36017595744488_1_alg».proof.Proof.Gen.KernelIdeal.Frame
import proofs.«172178_j36017595744488_1_alg».proof.Proof.Blocks
import Idealize.ShloMosaic.Lib.Pipeline.Value

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.Product Cert.Layer

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The layer's output as one function of the arrays the region is entered with: the aggregated rows, the bias and the weight matrix. -/
def layer (c : Dev nD) : S200000x2.Idx → EReal :=
  mm (M := 200000) (K := 128) (N := 2)
    (hidden (V c main_v61 : S200000x128.Idx → EReal) (V c main_arg5 : S128.Idx → EReal)) (V c main_arg6 : S128x2.Idx → EReal)

/-- The printed index maps over the grid: the row-blocked windows are at block (t, 0), the others at block 0. -/
theorem idx : ∀ t : Fin cfg2.N, win2_0.index t (0 : Fin 2) = t.val ∧ win2_0.index t (1 : Fin 2) = 0
    ∧ win2_1.index t (0 : Fin 1) = 0 ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, win2_0.index t (0 : Fin 2) = t.val ∧ win2_0.index t (1 : Fin 2) = 0
    ∧ win2_1.index t (0 : Fin 1) = 0 ∧ win2_2.index t (0 : Fin 2) = 0 ∧ win2_2.index t (1 : Fin 2) = 0
    ∧ win2_3.index t (0 : Fin 2) = t.val ∧ win2_3.index t (1 : Fin 2) = 0)

theorem point_lt (t : Fin cfg2.N) : t.val < 25 := lt_of_lt_of_eq t.isLt N_2

/-- Row p of the input block at point t is row 8000·t + p of the input array. -/
theorem rows_apply (c : Dev nD) (t : Fin cfg2.N) (p : Fin 8000) (q : Fin 128) (r : Fin 200000) (hr : r.val = 8000 * t.val + p.val) :
    (iblk2 V c 0 t : S8000x128.Idx → EReal) (ix2 p q) = (V c main_v61 : S200000x128.Idx → EReal) (ix2 r q) := by
  obtain ⟨ei0, ei1, eb0, ew0, ew1, eo0, eo1⟩ := idx t
  unfold iblk2
  rw [View.read_apply]
  show V c main_v61 _ = V c main_v61 _
  refine congrArg (V c main_v61) ?_
  funext a; apply Fin.ext
  match a with
  | ⟨0, _⟩ => show win2_0.index t (0 : Fin 2) * 8000 + 1 * p.val = r.val; rw [ei0, hr]; omega
  | ⟨1, _⟩ => show win2_0.index t (1 : Fin 2) * 128 + 1 * q.val = q.val; rw [ei1]; omega

/-- Every point sees the whole bias. -/
theorem bias_apply (c : Dev nD) (t : Fin cfg2.N) (q : Fin 128) :
    (iblk2 V c 1 t : S128.Idx → EReal) (ix1 q) = (V c main_arg5 : S128.Idx → EReal) (ix1 q) := by
  obtain ⟨ei0, ei1, eb0, ew0, ew1, eo0, eo1⟩ := idx t
  unfold iblk2
  rw [View.read_apply]
  show V c main_arg5 _ = V c main_arg5 _
  refine congrArg (V c main_arg5) ?_
  funext a; apply Fin.ext
  match a with
  | ⟨0, _⟩ => show win2_1.index t (0 : Fin 1) * 128 + 1 * q.val = q.val; rw [eb0]; omega

/-- Every point sees the whole weight matrix. -/
theorem weights_apply (c : Dev nD) (t : Fin cfg2.N) (k : Fin 128) (q : Fin 2) :
    (iblk2 V c 2 t : S128x2.Idx → EReal) (ix2 k q) = (V c main_arg6 : S128x2.Idx → EReal) (ix2 k q) := by
  obtain ⟨ei0, ei1, eb0, ew0, ew1, eo0, eo1⟩ := idx t
  unfold iblk2
  rw [View.read_apply]
  show V c main_arg6 _ = V c main_arg6 _
  refine congrArg (V c main_arg6) ?_
  funext a; apply Fin.ext
  match a with
  | ⟨0, _⟩ => show win2_2.index t (0 : Fin 2) * 128 + 1 * k.val = k.val; rw [ew0]; omega
  | ⟨1, _⟩ => show win2_2.index t (1 : Fin 2) * 2 + 1 * q.val = q.val; rw [ew1]; omega

/-- What point t writes back is block t of `layer`. -/
theorem flushed_eq (c : Dev nD) (t : Fin cfg2.N) :
    (dat2 V c).flushed 3 t = ((cfg2.win 3).blk t).view.read (Elt Ideal) (layer V c) := by
  show (cfg2.win 3).cut (grid2.coords t) ((dat2 V c).after 3 t) = _
  rw [after2_3]
  unfold out2_3
  rw [View.canon_unit_zero hz2]
  simp only [View.ld_unit_zero (S := S8000x128) hz2, View.ld_unit_zero (S := S128) hz1, View.ld_unit_zero (S := S128x2) hz2]
  rw [Blocks.pay2_eq]
  funext j
  obtain ⟨p, q, rfl⟩ : ∃ (p : Fin 8000) (q : Fin 2), j = ix2 p q := ⟨j 0, j 1, eq_ix2 j⟩
  have ht := point_lt t
  have hP : 8000 * t.val + p.val < 200000 := by have := p.isLt; omega
  have hemb : ((cfg2.win 3).blk t).view.emb (ix2 p q) = ix2 (⟨8000 * t.val + p.val, hP⟩ : Fin 200000) q := by
    obtain ⟨ei0, ei1, eb0, ew0, ew1, eo0, eo1⟩ := idx t
    funext a; apply Fin.ext
    match a with
    | ⟨0, _⟩ => show win2_3.index t (0 : Fin 2) * 8000 + 1 * p.val = 8000 * t.val + p.val; rw [eo0]; omega
    | ⟨1, _⟩ => show win2_3.index t (1 : Fin 2) * 2 + 1 * q.val = q.val; rw [eo1]; omega
  show mm (M := 8000) (K := 128) (N := 2) (hidden (iblk2 V c 0 t) (iblk2 V c 1 t)) (iblk2 V c 2 t) (ix2 p q) = layer V c (((cfg2.win 3).blk t).view.emb (ix2 p q))
  rw [hemb]
  unfold layer
  refine mm_eq_of_row_col _ _ _ _ (ix2 p q) (ix2 (⟨8000 * t.val + p.val, hP⟩ : Fin 200000) q) (fun k => ?_) (fun k => ?_)
  · exact hidden_congr _ _ _ _ p (⟨8000 * t.val + p.val, hP⟩ : Fin 200000) k (rows_apply V c t p k ⟨8000 * t.val + p.val, hP⟩ rfl) (bias_apply V c t k)
  · exact weights_apply V c t k q

/-- An index of the output array is in point t's block iff each coordinate is in the block's range on its axis. -/
theorem mem_blk (t : Fin cfg2.N) (i : S200000x2.Idx) :
    i ∈ ((cfg2.win 3).blk t).view.set ↔ ∀ a : Fin 2, win2_3.index t a * S8000x2.size a ≤ (i a).val ∧ (i a).val < win2_3.index t a * S8000x2.size a + S8000x2.size a := by
  show i ∈ ((View.whole main_v62).slice (win2_3.rect t)).set ↔ _
  rw [View.set_slice_whole, Rect.mem_set_unit]
  exact Iff.rfl

/-- Row r is in the block of point r / 8000: the blocks cover the array. -/
theorem cover (i : S200000x2.Idx) : ∃ t : Fin cfg2.N, (cfg2.win 3).flush t = true ∧ i ∈ ((cfg2.win 3).blk t).view.set := by
  have hi0 : (i 0).val < 200000 := (i 0).isLt
  have hi1 : (i 1).val < 2 := (i 1).isLt
  have hN : cfg2.N = 25 := N_2
  have hlt : (i 0).val / 8000 < cfg2.N := by rw [hN]; omega
  obtain ⟨ei0, ei1, eb0, ew0, ew1, eo0, eo1⟩ := idx ⟨(i 0).val / 8000, hlt⟩
  refine ⟨⟨(i 0).val / 8000, hlt⟩, flush2_3 _, ?_⟩
  rw [mem_blk]
  intro a
  match a with
  | ⟨0, _⟩ =>
    show win2_3.index ⟨(i 0).val / 8000, hlt⟩ (0 : Fin 2) * 8000 ≤ (i 0).val ∧ (i 0).val < win2_3.index ⟨(i 0).val / 8000, hlt⟩ (0 : Fin 2) * 8000 + 8000
    rw [eo0]
    show (i 0).val / 8000 * 8000 ≤ (i 0).val ∧ (i 0).val < (i 0).val / 8000 * 8000 + 8000
    omega
  | ⟨1, _⟩ =>
    show win2_3.index ⟨(i 0).val / 8000, hlt⟩ (1 : Fin 2) * 2 ≤ (i 1).val ∧ (i 1).val < win2_3.index ⟨(i 0).val / 8000, hlt⟩ (1 : Fin 2) * 2 + 2
    rw [eo1]
    omega

/-- The output array after the region is `layer` of the arrays it was entered with. -/
theorem final (c : Dev nD) : (dat2 V c).arrAt 3 cfg2.N = layer V c :=
  (dat2 V c).arrAt_eq_of_cover 3 (layer V c) (fun t _ => flushed_eq V c t) cover

end Cert.KernelIdeal.Region2

end
-- ==== Proof.Walk.lean ====
/-
  The idealized kernel's buffers at the boundaries between its segments, as the reference's own stages.

  Outside its three regions the kernel's @main is, operation for operation, the reference's @main: the source and
  target index vectors with the self-loops appended, the symmetric normalisation of the edge weights, and after each
  layer's product the gather of the source rows, the scaling by the edge's weight and the scatter-add onto the target
  rows. So at every boundary the buffers that later segments read hold the value the reference's matching operation
  computes from the same arguments. A region's output array is the product of relu(x + b) with the weight matrix
  (the first: of the feature column with the weight row), which is what the reference's bias-add, maximum with zero
  and dot_general compute as whole arrays. Walking the boundaries in order, the result buffer ends at the
  reference's last stage of the arguments.
-/
import proofs.«172178_j36017595744488_1_alg».proof.Proof.Gen.KernelIdeal.Frame
import proofs.«172178_j36017595744488_1_alg».proof.Proof.RefRead
import proofs.«172178_j36017595744488_1_alg».proof.Proof.Region0
import proofs.«172178_j36017595744488_1_alg».proof.Proof.Region1
import proofs.«172178_j36017595744488_1_alg».proof.Proof.Region2
import proofs.«172178_j36017595744488_1_alg».proof.Proof.LibHostWalk

set_option maxRecDepth 16384

noncomputable section

namespace Cert.KernelIdeal.Walk

open Idealize.ShloMosaic Idealize.ShloMosaic.TcCoe Idealize.SL.Sem Idealize.ShloMosaic.ValueIdx
open Cert.KernelIdeal Cert.KernelIdeal.Gen Cert.ReferenceIdeal.ReadP
open Cert.PlainDot Cert.Product Cert.Layer Cert.HostWalk

variable (m : (ℓ : Loc nD τ sig) → Buf (Elt Ideal) ℓ) (ρ : Dev nD → PrngReg) (c : Dev nD)

/-- The reference's three products contract the left operand's columns against the right operand's rows. -/
theorem plainR0 : IsPlain Cert.ReferenceIdeal.dot_S200000x1_S1x128_S200000x128_1_0_0_1_n_n := ⟨rfl, rfl, rfl, rfl, rfl, rfl⟩
theorem plainR1 : IsPlain Cert.ReferenceIdeal.dot_S200000x128_S128x128_S200000x128_1_0_0_1_n_n := ⟨rfl, rfl, rfl, rfl, rfl, rfl⟩
theorem plainR2 : IsPlain Cert.ReferenceIdeal.dot_S200000x128_S128x2_S200000x2_1_0_0_1_n_n := ⟨rfl, rfl, rfl, rfl, rfl, rfl⟩

/-! ## Before the first region: the index vectors, the edge weights' normalisation, the feature column -/

theorem W3_v5 : W3 m ρ c (Proc.devRef .tc main_v5) = val_main_v5 (F := Ideal) (m ((c : Thread nD τ).loc main_arg0)) := by
  show StableHlo.after hostOps0_2 (StableHlo.after hostOps0_1 (StableHlo.after hostOps0 (W0 m ρ c))) (Proc.devRef .tc main_v5) = _
  walk_back [hostOps0, hostOps0_1, hostOps0_2]
  rfl

theorem W3_v6 : W3 m ρ c (Proc.devRef .tc main_v6) = val_main_v6 (F := Ideal) (m ((c : Thread nD τ).loc main_arg0)) := by
  show StableHlo.after hostOps0_2 (StableHlo.after hostOps0_1 (StableHlo.after hostOps0 (W0 m ρ c))) (Proc.devRef .tc main_v6) = _
  walk_back [hostOps0, hostOps0_1, hostOps0_2]
  rfl

theorem W3_v32 : W3 m ρ c (Proc.devRef .tc main_v32) = val_main_v32 (F := Ideal) (m ((c : Thread nD τ).loc main_arg0)) (m ((c : Thread nD τ).loc main_arg1)) := by
  show StableHlo.after hostOps0_2 (StableHlo.after hostOps0_1 (StableHlo.after hostOps0 (W0 m ρ c))) (Proc.devRef .tc main_v32) = _
  walk_back [hostOps0, hostOps0_1, hostOps0_2]
  rfl

theorem W3_v33 : W3 m ρ c (Proc.devRef .tc main_v33) = val_main_v33 (F := Ideal) (m ((c : Thread nD τ).loc main_arg1)) := by
  show StableHlo.after hostOps0_2 (StableHlo.after hostOps0_1 (StableHlo.after hostOps0 (W0 m ρ c))) (Proc.devRef .tc main_v33) = _
  walk_back [hostOps0, hostOps0_1, hostOps0_2]
  rfl

theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  walk_back [hostOps0, hostOps0_1, hostOps0_2]

/-! ## The arguments at the boundaries where a region reads them -/

theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  walk_back [hostOps0, hostOps0_1, hostOps0_2]
theorem W4_arg3 : W4 m ρ c (Proc.devRef .tc main_arg3) = (m ((c : Thread nD τ).loc main_arg3)) :=
  (W4_of_ne m ρ c main_arg3 (by decide)).trans (W3_arg3 m ρ c)
theorem W5_arg3 : W5 m ρ c (Proc.devRef .tc main_arg3) = (m ((c : Thread nD τ).loc main_arg3)) := by
  show StableHlo.after hostOps1 (W4 m ρ c) (Proc.devRef .tc main_arg3) = _
  walk_back [hostOps1]
  exact W4_arg3 m ρ c

theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  walk_back [hostOps0, hostOps0_1, hostOps0_2]
theorem W4_arg4 : W4 m ρ c (Proc.devRef .tc main_arg4) = (m ((c : Thread nD τ).loc main_arg4)) :=
  (W4_of_ne m ρ c main_arg4 (by decide)).trans (W3_arg4 m ρ c)
theorem W5_arg4 : W5 m ρ c (Proc.devRef .tc main_arg4) = (m ((c : Thread nD τ).loc main_arg4)) := by
  show StableHlo.after hostOps1 (W4 m ρ c) (Proc.devRef .tc main_arg4) = _
  walk_back [hostOps1]
  exact W4_arg4 m ρ c

theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  walk_back [hostOps0, hostOps0_1, hostOps0_2]
theorem W4_arg5 : W4 m ρ c (Proc.devRef .tc main_arg5) = (m ((c : Thread nD τ).loc main_arg5)) :=
  (W4_of_ne m ρ c main_arg5 (by decide)).trans (W3_arg5 m ρ c)
theorem W5_arg5 : W5 m ρ c (Proc.devRef .tc main_arg5) = (m ((c : Thread nD τ).loc main_arg5)) := by
  show StableHlo.after hostOps1 (W4 m ρ c) (Proc.devRef .tc main_arg5) = _
  walk_back [hostOps1]
  exact W4_arg5 m ρ c
theorem W6_arg5 : W6 m ρ c (Proc.devRef .tc main_arg5) = (m ((c : Thread nD τ).loc main_arg5)) :=
  (W6_of_ne m ρ c main_arg5 (by decide)).trans (W5_arg5 m ρ c)
theorem W7_arg5 : W7 m ρ c (Proc.devRef .tc main_arg5) = (m ((c : Thread nD τ).loc main_arg5)) := by
  show StableHlo.after hostOps2 (W6 m ρ c) (Proc.devRef .tc main_arg5) = _
  walk_back [hostOps2]
  exact W6_arg5 m ρ c

theorem W3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  walk_back [hostOps0, hostOps0_1, hostOps0_2]
theorem W4_arg6 : W4 m ρ c (Proc.devRef .tc main_arg6) = (m ((c : Thread nD τ).loc main_arg6)) :=
  (W4_of_ne m ρ c main_arg6 (by decide)).trans (W3_arg6 m ρ c)
theorem W5_arg6 : W5 m ρ c (Proc.devRef .tc main_arg6) = (m ((c : Thread nD τ).loc main_arg6)) := by
  show StableHlo.after hostOps1 (W4 m ρ c) (Proc.devRef .tc main_arg6) = _
  walk_back [hostOps1]
  exact W4_arg6 m ρ c
theorem W6_arg6 : W6 m ρ c (Proc.devRef .tc main_arg6) = (m ((c : Thread nD τ).loc main_arg6)) :=
  (W6_of_ne m ρ c main_arg6 (by decide)).trans (W5_arg6 m ρ c)
theorem W7_arg6 : W7 m ρ c (Proc.devRef .tc main_arg6) = (m ((c : Thread nD τ).loc main_arg6)) := by
  show StableHlo.after hostOps2 (W6 m ρ c) (Proc.devRef .tc main_arg6) = _
  walk_back [hostOps2]
  exact W6_arg6 m ρ c

theorem W3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  walk_back [hostOps0, hostOps0_1, hostOps0_2]
theorem W4_arg7 : W4 m ρ c (Proc.devRef .tc main_arg7) = (m ((c : Thread nD τ).loc main_arg7)) :=
  (W4_of_ne m ρ c main_arg7 (by decide)).trans (W3_arg7 m ρ c)
theorem W5_arg7 : W5 m ρ c (Proc.devRef .tc main_arg7) = (m ((c : Thread nD τ).loc main_arg7)) := by
  show StableHlo.after hostOps1 (W4 m ρ c) (Proc.devRef .tc main_arg7) = _
  walk_back [hostOps1]
  exact W4_arg7 m ρ c
theorem W6_arg7 : W6 m ρ c (Proc.devRef .tc main_arg7) = (m ((c : Thread nD τ).loc main_arg7)) :=
  (W6_of_ne m ρ c main_arg7 (by decide)).trans (W5_arg7 m ρ c)
theorem W7_arg7 : W7 m ρ c (Proc.devRef .tc main_arg7) = (m ((c : Thread nD τ).loc main_arg7)) := by
  show StableHlo.after hostOps2 (W6 m ρ c) (Proc.devRef .tc main_arg7) = _
  walk_back [hostOps2]
  exact W6_arg7 m ρ c
theorem W8_arg7 : W8 m ρ c (Proc.devRef .tc main_arg7) = (m ((c : Thread nD τ).loc main_arg7)) :=
  (W8_of_ne m ρ c main_arg7 (by decide)).trans (W7_arg7 m ρ c)

/-! ## The first region: the feature column times the weight row -/

theorem W4_v34 : W4 m ρ c (Proc.devRef .tc main_v34) = val_main_v34 (F := Ideal) (m ((c : Thread nD τ).loc main_arg1)) (m ((c : Thread nD τ).loc main_arg2)) := by
  refine (W4_arr m ρ c 2).trans ((Region0.final (V3 m ρ) c).trans ?_)
  unfold Region0.layer
  show mm (M := 200000) (K := 1) (N := 128) (W3 m ρ c (Proc.devRef .tc main_v33)) (W3 m ρ c (Proc.devRef .tc main_arg2)) = _
  rw [W3_v33 m ρ c, W3_arg2 m ρ c]
  unfold val_main_v34
  exact (dotGeneral_eq plainR0 none _ _).symm

/-! ## The index vectors and the edge weights, carried across the regions (no region and no later stretch writes them) -/

theorem W4_v5 : W4 m ρ c (Proc.devRef .tc main_v5) = val_main_v5 (F := Ideal) (m ((c : Thread nD τ).loc main_arg0)) :=
  (W4_of_ne m ρ c main_v5 (by decide)).trans (W3_v5 m ρ c)
theorem W5_v5 : W5 m ρ c (Proc.devRef .tc main_v5) = val_main_v5 (F := Ideal) (m ((c : Thread nD τ).loc main_arg0)) := by
  show StableHlo.after hostOps1 (W4 m ρ c) (Proc.devRef .tc main_v5) = _
  walk_back [hostOps1]
  exact W4_v5 m ρ c
theorem W6_v5 : W6 m ρ c (Proc.devRef .tc main_v5) = val_main_v5 (F := Ideal) (m ((c : Thread nD τ).loc main_arg0)) :=
  (W6_of_ne m ρ c main_v5 (by decide)).trans (W5_v5 m ρ c)
theorem W7_v5 : W7 m ρ c (Proc.devRef .tc main_v5) = val_main_v5 (F := Ideal) (m ((c : Thread nD τ).loc main_arg0)) := by
  show StableHlo.after hostOps2 (W6 m ρ c) (Proc.devRef .tc main_v5) = _
  walk_back [hostOps2]
  exact W6_v5 m ρ c
theorem W8_v5 : W8 m ρ c (Proc.devRef .tc main_v5) = val_main_v5 (F := Ideal) (m ((c : Thread nD τ).loc main_arg0)) :=
  (W8_of_ne m ρ c main_v5 (by decide)).trans (W7_v5 m ρ c)

theorem W4_v6 : W4 m ρ c (Proc.devRef .tc main_v6) = val_main_v6 (F := Ideal) (m ((c : Thread nD τ).loc main_arg0)) :=
  (W4_of_ne m ρ c main_v6 (by decide)).trans (W3_v6 m ρ c)
theorem W5_v6 : W5 m ρ c (Proc.devRef .tc main_v6) = val_main_v6 (F := Ideal) (m ((c : Thread nD τ).loc main_arg0)) := by
  show StableHlo.after hostOps1 (W4 m ρ c) (Proc.devRef .tc main_v6) = _
  walk_back [hostOps1]
  exact W4_v6 m ρ c
theorem W6_v6 : W6 m ρ c (Proc.devRef .tc main_v6) = val_main_v6 (F := Ideal) (m ((c : Thread nD τ).loc main_arg0)) :=
  (W6_of_ne m ρ c main_v6 (by decide)).trans (W5_v6 m ρ c)
theorem W7_v6 : W7 m ρ c (Proc.devRef .tc main_v6) = val_main_v6 (F := Ideal) (m ((c : Thread nD τ).loc main_arg0)) := by
  show StableHlo.after hostOps2 (W6 m ρ c) (Proc.devRef .tc main_v6) = _
  walk_back [hostOps2]
  exact W6_v6 m ρ c
theorem W8_v6 : W8 m ρ c (Proc.devRef .tc main_v6) = val_main_v6 (F := Ideal) (m ((c : Thread nD τ).loc main_arg0)) :=
  (W8_of_ne m ρ c main_v6 (by decide)).trans (W7_v6 m ρ c)

theorem W4_v32 : W4 m ρ c (Proc.devRef .tc main_v32) = val_main_v32 (F := Ideal) (m ((c : Thread nD τ).loc main_arg0)) (m ((c : Thread nD τ).loc main_arg1)) :=
  (W4_of_ne m ρ c main_v32 (by decide)).trans (W3_v32 m ρ c)
theorem W5_v32 : W5 m ρ c (Proc.devRef .tc main_v32) = val_main_v32 (F := Ideal) (m ((c : Thread nD τ).loc main_arg0)) (m ((c : Thread nD τ).loc main_arg1)) := by
  show StableHlo.after hostOps1 (W4 m ρ c) (Proc.devRef .tc main_v32) = _
  walk_back [hostOps1]
  exact W4_v32 m ρ c
theorem W6_v32 : W6 m ρ c (Proc.devRef .tc main_v32) = val_main_v32 (F := Ideal) (m ((c : Thread nD τ).loc main_arg0)) (m ((c : Thread nD τ).loc main_arg1)) :=
  (W6_of_ne m ρ c main_v32 (by decide)).trans (W5_v32 m ρ c)
theorem W7_v32 : W7 m ρ c (Proc.devRef .tc main_v32) = val_main_v32 (F := Ideal) (m ((c : Thread nD τ).loc main_arg0)) (m ((c : Thread nD τ).loc main_arg1)) := by
  show StableHlo.after hostOps2 (W6 m ρ c) (Proc.devRef .tc main_v32) = _
  walk_back [hostOps2]
  exact W6_v32 m ρ c
theorem W8_v32 : W8 m ρ c (Proc.devRef .tc main_v32) = val_main_v32 (F := Ideal) (m ((c : Thread nD τ).loc main_arg0)) (m ((c : Thread nD τ).loc main_arg1)) :=
  (W8_of_ne m ρ c main_v32 (by decide)).trans (W7_v32 m ρ c)

/-! ## The first aggregation, the second region, the second aggregation, the third region -/

theorem W5_v47 : W5 m ρ c (Proc.devRef .tc main_v47) = val_main_v47 (F := Ideal) (m ((c : Thread nD τ).loc main_arg0)) (m ((c : Thread nD τ).loc main_arg1)) (m ((c : Thread nD τ).loc main_arg2)) := by
  show StableHlo.after hostOps1 (W4 m ρ c) (Proc.devRef .tc main_v47) = _
  walk_back [hostOps1, W4_v5 m ρ c, W4_v6 m ρ c, W4_v32 m ρ c, W4_v34 m ρ c]
  rfl

theorem W6_v48 : W6 m ρ c (Proc.devRef .tc main_v48) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ((Region1.final (V5 m ρ) c).trans ?_)
  unfold Region1.layer
  show mm (M := 200000) (K := 128) (N := 128) (hidden (W5 m ρ c (Proc.devRef .tc main_v47)) (W5 m ρ c (Proc.devRef .tc main_arg3)))
      (W5 m ρ c (Proc.devRef .tc main_arg4)) = _
  rw [W5_v47 m ρ c, W5_arg3 m ρ c, W5_arg4 m ρ c]
  unfold val_main_v52 val_main_v51 val_main_v50 val_main_v49 val_main_v48 val_main_call1_v0 val_main_call1_cst
  rw [dotGeneral_eq plainR1 none, hidden_host]

theorem W7_v61 : W7 m ρ c (Proc.devRef .tc main_v61) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) (Proc.devRef .tc main_v61) = _
  walk_back [hostOps2, W6_v5 m ρ c, W6_v6 m ρ c, W6_v32 m ρ c, W6_v48 m ρ c]
  rfl

theorem W8_v62 : W8 m ρ c (Proc.devRef .tc main_v62) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 3).trans ((Region2.final (V7 m ρ) c).trans ?_)
  unfold Region2.layer
  show mm (M := 200000) (K := 128) (N := 2) (hidden (W7 m ρ c (Proc.devRef .tc main_v61)) (W7 m ρ c (Proc.devRef .tc main_arg5)))
      (W7 m ρ c (Proc.devRef .tc main_arg6)) = _
  rw [W7_v61 m ρ c, W7_arg5 m ρ c, W7_arg6 m ρ c]
  unfold val_main_v70 val_main_v69 val_main_v68 val_main_v67 val_main_v66 val_main_call2_v0 val_main_call2_cst
  rw [dotGeneral_eq plainR2 none, hidden_host]

/-! ## The last aggregation, the last bias and maximum with zero, and the log-softmax -/

theorem W11_v80 : W11 m ρ c (Proc.devRef .tc main_v80) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3_2 (StableHlo.after hostOps3_1 (StableHlo.after hostOps3 (W8 m ρ c))) (Proc.devRef .tc main_v80) = _
  walk_back [hostOps3, hostOps3_1, hostOps3_2, W8_v5 m ρ c, W8_v6 m ρ c, W8_v32 m ρ c, W8_v62 m ρ c, W8_arg7 m ρ c]
  rfl

end Cert.KernelIdeal.Walk

end
-- ==== Proof.lean ====
/-
  The edge-weighted graph network: three graph-convolution layers with a ReLU after each and a log-softmax, 200000 nodes.

  The kernel and the reference compute the same symmetric normalisation of the edge weights (self-loops appended) and
  the same aggregation after every layer — gather the source rows, scale by the edge's weight, scatter-add onto the target
  rows — with the same host operations. They differ in where a layer's bias-add and ReLU sit: the reference applies them
  after the aggregation, the kernel inside the next layer's product, which it computes a block of 8000 rows at a time with
  its operands rounded to a narrower float format on the way in. On the extended reals the rounding is the identity, a
  row of a product depends only on that row of the left operand, and relu(x + b) is entry by entry; so each region's
  output array is relu(x + b) · W of the arrays it was entered with (the first region's: the feature column times the
  weight row), which is what the reference's operations compute, and the two results are one function of the arguments.
  No law of arithmetic beyond that is used, so the precondition is never opened.

  The three frames are the generated ones (the reference's is its run, read stage by stage, with the result dropped); the ideal pass
  rewrote nothing, so the kernel's idealization is its own text read on the extended reals.
-/
import proofs.«172178_j36017595744488_1_alg».proof.Defs
import proofs.«172178_j36017595744488_1_alg».proof.Proof.Gen.Kernel
import proofs.«172178_j36017595744488_1_alg».proof.Proof.Gen.Kernel.Frame
import proofs.«172178_j36017595744488_1_alg».proof.Proof.Gen.KernelIdeal
import proofs.«172178_j36017595744488_1_alg».proof.Proof.Gen.KernelIdeal.Frame
import proofs.«172178_j36017595744488_1_alg».proof.Proof.Gen.ReferenceIdeal
import proofs.«172178_j36017595744488_1_alg».proof.Proof.Gen.Pre_finite_inputs
import proofs.«172178_j36017595744488_1_alg».proof.Proof.RefWalk
import proofs.«172178_j36017595744488_1_alg».proof.Proof.KernelRun
import proofs.«172178_j36017595744488_1_alg».proof.Proof.Walk
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Stages.run m ρ)

/-- Both programs end with the reference's last stage of the (agreeing) arguments in their result buffers. -/
theorem algebraic : Cert.algebraic_KernelIdeal_ReferenceIdeal := by
  intro m ρ m' ρ' _ hagree
  refine ⟨fun c => Cert.ReferenceIdeal.ReadP.val_main_v88 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    ?_, ?_⟩
  · exact (θ_run Cert.KernelIdeal.defs _ _).mono
      (fun _ h c => ⟨(h c).1.trans (Cert.KernelIdeal.Walk.W11_v80 m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.Stages.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
